-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x3x4096 : Shape := ⟨3, ![8, 3, 4096]⟩
abbrev S8x1x4096 : Shape := ⟨3, ![8, 1, 4096]⟩
abbrev S4x3x512 : Shape := ⟨3, ![4, 3, 512]⟩
abbrev S4x1x512 : Shape := ⟨3, ![4, 1, 512]⟩
abbrev S4x1x4096 : Shape := ⟨3, ![4, 1, 4096]⟩
abbrev S4x512 : Shape := ⟨2, ![4, 512]⟩
abbrev S4x512x512 : Shape := ⟨3, ![4, 512, 512]⟩
abbrev S4x512x1 : Shape := ⟨3, ![4, 512, 1]⟩
abbrev S8x4096 : Shape := ⟨2, ![8, 4096]⟩
abbrev S_ : Shape := ⟨0, ![]⟩

abbrev nBuf : Space → Nat
  | .hbm => 17
  | .vmem => 9
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x3x4096, .f32⟩
  | .hbm, ⟨3, _⟩ => ⟨S8x3x4096, .f32⟩
  | .hbm, ⟨4, _⟩ => ⟨S8x1x4096, .f32⟩
  | .hbm, ⟨5, _⟩ => ⟨S8x1x4096, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S4x3x512, .f32⟩
  | .local _ .vmem, ⟨1, _⟩ => ⟨S4x3x512, .f32⟩
  | .local _ .vmem, ⟨2, _⟩ => ⟨S4x3x512, .f32⟩
  | .local _ .vmem, ⟨3, _⟩ => ⟨S4x3x512, .f32⟩
  | .local _ .vmem, ⟨4, _⟩ => ⟨S4x1x512, .f32⟩
  | .local _ .vmem, ⟨5, _⟩ => ⟨S4x1x512, .f32⟩
  | .local _ .vmem, ⟨6, _⟩ => ⟨S4x1x4096, .f32⟩
  | .local _ .vmem, ⟨7, _⟩ => ⟨S4x1x4096, .f32⟩
  | .local _ .vmem, ⟨8, _⟩ => ⟨S4x512, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 8], ![false, false, false]⟩

def k0_mult1 (i : grid0.Coords) : BitVec 32 :=
  let arg2 : BitVec 32 := BitVec.ofNat 32 (i 2).val
  let c512_i32 : BitVec 32 := 512#32
  let v55 : BitVec 32 := Scalar.muli arg2 c512_i32
  v55
def k0_off1 (i : grid0.Coords) : Fin 3 → Nat :=
  let c0_16 : Index := 0#32
  let c0_17 : Index := 0#32
  let arg2 : BitVec 32 := BitVec.ofNat 32 (i 2).val
  let c512_i32 : BitVec 32 := 512#32
  let v55 : BitVec 32 := Scalar.muli arg2 c512_i32
  let v56 : BitVec 32 := v55
  let v57 : Index := Scalar.indexCast v56
  ![0, 0, v57.toNat]
def k0_cond3 (i : grid0.Coords) : BitVec 1 :=
  let arg2 : BitVec 32 := BitVec.ofNat 32 (i 2).val
  let c7_i32 : BitVec 32 := 7#32
  let v64 : BitVec 1 := Scalar.cmpi .eq arg2 c7_i32
  let v65 : BitVec 32 := Scalar.extui v64
  let c0_i32_20 : BitVec 32 := 0#32
  let v66 : BitVec 1 := Scalar.cmpi .ne v65 c0_i32_20
  v66

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S4x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S4x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  transposes_S8x4096x3_S8x3x4096_0_2_1 : S8x4096x3.Transposes [0, 2, 1] S8x3x4096
  inb_S4x512_S4x512_0_0 : ∀ a, (![0, 0] : Fin 2 → Nat) a + S4x512.size a ≤ S4x512.size a
  h_S4x512 : 0 < S4x512.numel
  shapeCasts_S4x512_S4x512 : S4x512.ShapeCasts S4x512
  inb_S4x1x4096_S4x1x4096_0_0_0 : ∀ a, (![0, 0, 0] : Fin 3 → Nat) a + S4x1x4096.size a ≤ S4x1x4096.size a
  h_S4x1x4096 : 0 < S4x1x4096.numel
  inb_S4x3x512_S4x3x512_0_0_0 : ∀ a, (![0, 0, 0] : Fin 3 → Nat) a + S4x3x512.size a ≤ S4x3x512.size a
  h_S4x3x512 : 0 < S4x3x512.numel
  shapeCasts_S4x3x512_S4x3x512 : S4x3x512.ShapeCasts S4x3x512
  slices_S4x3x512_o0_0_0_S4x1x512 : S4x3x512.Slices ![0, 0, 0] S4x1x512
  shapeCasts_S4x1x512_S4x512 : S4x1x512.ShapeCasts S4x512
  shapeCasts_S4x512_S4x512x1 : S4x512.ShapeCasts S4x512x1
  shapeCasts_S4x512_S4x1x512 : S4x512.ShapeCasts S4x1x512
  broadcasts_S4x512x1_S4x512x512 : S4x512x1.Broadcasts S4x512x512
  broadcasts_S4x1x512_S4x512x512 : S4x1x512.Broadcasts S4x512x512
  slices_S4x3x512_o0_1_0_S4x1x512 : S4x3x512.Slices ![0, 1, 0] S4x1x512
  slices_S4x3x512_o0_2_0_S4x1x512 : S4x3x512.Slices ![0, 2, 0] S4x1x512
  reduces_S4x512x512_S4x512 : S4x512x512.Reduces [2] S4x512
  reduces_S4x512x512_S4x512_2 : S4x512x512.Reduces [1] S4x512
  h_S4x1x512 : 0 < S4x1x512.numel
  shapeCasts_S4x1x512_S4x1x512 : S4x1x512.ShapeCasts S4x1x512
  inb_S4x1x512_S4x1x512_0_0_0 : ∀ a, (![0, 0, 0] : Fin 3 → Nat) a + S4x1x512.size a ≤ S4x1x512.size a
  shapeCasts_S8x1x4096_S8x4096 : S8x1x4096.ShapeCasts S8x4096
  reducesTo_S8x4096_S_d0_1 : S8x4096.ReducesTo [0, 1] S_
  h_S_ : 0 < S_.numel
  hrank0 : 0 < grid0.rank
  k0_mult1_dvd : ∀ i : grid0.Coords, 512 ∣ (k0_mult1 i).toNat
  k0_off1_inb : ∀ i : grid0.Coords, ∀ a, (k0_off1 i) a + S4x1x512.size a ≤ S4x1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x3x512.size a ≤ S8x3x4096.size a
  hwx0_0 : ∀ i : grid0.Coords, EltTy.bits .f32 = 32 ∨ (Rect.block (s := S8x3x4096) S4x3x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x3x512.size a ≤ S8x3x4096.size a
  hwx0_1 : ∀ i : grid0.Coords, EltTy.bits .f32 = 32 ∨ (Rect.block (s := S8x3x4096) S4x3x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1x512.size a ≤ S8x1x4096.size a
  hwx0_2 : ∀ i : grid0.Coords, EltTy.bits .f32 = 32 ∨ (Rect.block (s := S8x1x4096) S4x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x4096.size a ≤ S8x1x4096.size a
  hwx0_3 : ∀ i : grid0.Coords, EltTy.bits .f32 = 32 ∨ (Rect.block (s := S8x1x4096) S4x1x4096.size (cc0_transform_3 i) (hinb0_3 i)).WholeWords (EltTy.packing .f32)

variable [Facts₀]

abbrev win0_0 : Pipeline.Window sig grid0 :=
  Pipeline.Window.ofSpec (Memref.whole main_v0) S4x3x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x3x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S4x1x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S4x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond3 i == 1#1) | 3 => fun _ => false | ⟨_ + 4, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S_, .f32⟩
  | .hbm, ⟨24, _⟩ => ⟨S8x4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S_d0_1 : S8x4096.ReducesTo [0, 1] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.ChamferSpec.lean ====
/-
  The squared-distance table of two clouds of 4096 points in 3-space, in each of 8 batches, and its two
  nearest-neighbour minima, as plain functions of the argument arrays over the extended reals; and the mean-of-means
  both programs end with.

  `sqd a b g n m` is the squared distance from point `n` of cloud `a` to point `m` of cloud `b` in batch `g`,
  accumulated coordinate by coordinate from zero and clamped below at zero. `dist1` minimises over `m`,
  `dist2` over `n`. A minimum over a finite range is written as an infimum; `fold_min_eq_iInf` turns the fold
  of `min` from the top element that a min-reduction unfolds to into that infimum.
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- The shape of each argument array: 8 batches of 4096 points of 3 coordinates. -/
abbrev SArg : Shape := ⟨3, ![8, 4096, 3]⟩
/-- The shape of each table of minima: one entry per batch and point. -/
abbrev SDist : Shape := ⟨2, ![8, 4096]⟩
/-- The scalar shape. -/
abbrev S0 : Shape := ⟨0, ![]⟩

/-- One coordinate's difference between point `n` of `a` and point `m` of `b` in batch `g`. -/
def delta (a b : SArg.Idx → EReal) (g : Fin 8) (n m : Fin 4096) (k : Fin 3) : EReal :=
  a (ix3 g n k) - b (ix3 g m k)

/-- The squared distance: the three squared differences added to zero in order, then clamped below at zero. -/
def sqd (a b : SArg.Idx → EReal) (g : Fin 8) (n m : Fin 4096) : EReal :=
  max ((((0 : EReal) + delta a b g n m 0 * delta a b g n m 0) + delta a b g n m 1 * delta a b g n m 1)
    + delta a b g n m 2 * delta a b g n m 2) 0

/-- The distance from each point of `a` to the nearest point of `b`. -/
def dist1 (a b : SArg.Idx → EReal) : SDist.Idx → EReal := fun j => ⨅ m : Fin 4096, sqd a b (j 0) (j 1) m
/-- The distance from each point of `b` to the nearest point of `a`. -/
def dist2 (a b : SArg.Idx → EReal) : SDist.Idx → EReal := fun j => ⨅ n : Fin 4096, sqd a b (j 0) n (j 1)

theorem dist1_ix (a b : SArg.Idx → EReal) (g : Fin 8) (n : Fin 4096) :
    dist1 a b (ix2 g n) = ⨅ m : Fin 4096, sqd a b g n m := rfl
theorem dist2_ix (a b : SArg.Idx → EReal) (g : Fin 8) (m : Fin 4096) :
    dist2 a b (ix2 g m) = ⨅ n : Fin 4096, sqd a b g n m := rfl

/-- A fold of `min` from the top element over all of a finite range is the infimum over the range. -/
theorem fold_min_eq_iInf {K : Nat} (f : Fin K → EReal) :
    (Finset.univ : Finset (Fin K)).fold min (⊤ : EReal) f = ⨅ k : Fin K, f k := by
  refine eq_of_forall_le_iff fun c => ?_
  rw [Finset.le_fold_min, le_iInf_iff]
  exact ⟨fun h k => h.2 k (Finset.mem_univ k), fun h => ⟨le_top, fun k _ => h k⟩⟩

/-- The float pattern of plus infinity denotes the top element. -/
theorem ofBits_inf : (FloatOps.ofBits (F := Ideal) .f32 0x7F800000#32 : EReal) = ⊤ := by
  simp [Ideal.ofBits, Ideal.ieee]

/-- The mean of means both programs end with: each table summed from zero over both axes, divided by 32768, and the
    two quotients added. The two shape facts are arguments, so that each program supplies its own. -/
def meanOfMeans (h : SDist.ReducesTo [0, 1] S0) (h0 : 0 < S0.numel) (d1 d2 : FVec Ideal SDist .f32) : FVec Ideal S0 .f32 :=
  addf (Host.divf (Host.reduceAdd d1 (constant (F := Ideal) S0 .f32 0#32) h h0) (constant (F := Ideal) S0 .f32 1191182336#32))
    (Host.divf (Host.reduceAdd d2 (constant (F := Ideal) S0 .f32 0#32) h h0) (constant (F := Ideal) S0 .f32 1191182336#32))

example (h : SDist.ReducesTo [0, 1] S0) (h0 : 0 < S0.numel) (a b : SArg.Idx → EReal) : FVec Ideal S0 .f32 :=
  meanOfMeans h h0 (dist1 a b) (dist2 a b)

end Cert.Chamfer

end
-- ==== Proof.RefValue.lean ====
/-
  The reference program's value at the extended reals, for finite arguments.

  For two clouds of 4096 points in 3-space in each of 8 batches, the reference forms the squared distance from point
  n of the first cloud to point m of the second as max((|a_n|² + |b_m|²) - 2·⟨a_n, b_m⟩, 0), with |a_n|² and |b_m|² summed from
  zero and ⟨a_n, b_m⟩ a three-term sum. For REAL coordinates this is the sum of the three squared coordinate differences,
  accumulated from zero in order and clamped below at zero (the identity fails at the infinities, where a difference
  of infinities appears on one side only; hence the finiteness hypotheses). The reference then takes, from plus
  infinity, the minimum over m and the minimum over n, which are the two infima of the shared specification, and
  ends with the mean of means of those two tables.

  Three facts are proved: the printed finiteness precondition makes every entry of both arguments a real number
  (finite_of_pre); for real entries the two tables of minima are dist1 and dist2 (ref_dist1, ref_dist2); and the
  reference's result is the mean of means of dist1 and dist2 (ref_result).
-/
import proofs.«148777_j45337674776760_2_alg».proof.Proof.ChamferSpec
import proofs.«148777_j45337674776760_2_alg».proof.Proof.Gen.ReferenceIdeal.Read
import proofs.«148777_j45337674776760_2_alg».proof.Proof.Gen.Pre_finite_inputs
import Idealize.ShloMosaic.Lib.ValueIdx
import Idealize.ShloMosaic.Lib.Pipeline.Value
import Idealize.ShloMosaic.PureOps.Ideal.Laws
import Idealize.ShloMosaic.Lib.ReduceAll

noncomputable section

namespace Cert.ReferenceIdeal.RefValue

open Idealize.ShloMosaic Idealize.ShloMosaic.ValueIdx Cert.ReferenceIdeal Cert.ReferenceIdeal.Gen Cert.ReferenceIdeal.Read

/-! ## Finiteness: from the precondition to real entries -/

/-- The scalar shape has exactly one index. -/
instance : Subsingleton Cert.Pre_finite_inputs.S_.Idx := ⟨fun a b => funext fun d => d.elim0⟩

/-- An extended real whose absolute value compares below plus infinity is a real number. -/
theorem real_of_abs_lt_inf (x : EReal)
    (h : Ideal.cmp .olt (max x (-x)) (Ideal.ofBits .f32 0x7F800000#32) = 1#1) : ∃ r : ℝ, x = (r : EReal) := by
  have ht : (Ideal.ofBits .f32 0x7F800000#32 : EReal) = ⊤ := by simp [Ideal.ofBits, Ideal.ieee]
  rw [ht] at h
  induction x using EReal.rec with
  | bot => simp [Ideal.cmp] at h
  | coe r => exact ⟨r, rfl⟩
  | top => simp [Ideal.cmp] at h

/-- If the conjunction over all entries of "the absolute value is below plus infinity" holds, every entry is real. -/
theorem all_real (x : FVec Ideal Cert.Pre_finite_inputs.S8x4096x3 .f32)
    (hb : Cert.Pre_finite_inputs.S_.BroadcastsInDim Cert.Pre_finite_inputs.S8x4096x3 (![] : Fin 0 → Fin Cert.Pre_finite_inputs.S8x4096x3.rank))
    (hr : Cert.Pre_finite_inputs.S8x4096x3.ReducesTo [0, 1, 2] Cert.Pre_finite_inputs.S_)
    (hu : 0 < Cert.Pre_finite_inputs.S_.numel)
    (e : Host.reduce IntOp.andi
        (cmpf .olt (Host.absf x) (broadcastInDim Cert.Pre_finite_inputs.S8x4096x3 ![] hb
          (constant (F := Ideal) Cert.Pre_finite_inputs.S_ .f32 0x7F800000#32)))
        (constantI Cert.Pre_finite_inputs.S_ 1 1#1) hr hu ix0 = 1#1)
    (i : Cert.Pre_finite_inputs.S8x4096x3.Idx) : ∃ r : ℝ, x i = (r : EReal) := by
  have h1 := Host.reduce_andi_all _ _ hr hu ix0 e i
  rw [cmpf_apply, broadcastInDim_apply _ hb _ i ix0 (fun a => a.elim0)] at h1
  exact real_of_abs_lt_inf (x i) h1

/-- The finiteness precondition gives every entry of both arguments as a real number. -/
theorem finite_of_pre (x y : FVec Ideal Cert.ReferenceIdeal.S8x4096x3 .f32)
    (h : Cert.Pre_finite_inputs.fn (F := Ideal) x y = (fun _ => 1#1)) :
    (∀ i, ∃ r : ℝ, x i = (r : EReal)) ∧ (∀ i, ∃ r : ℝ, y i = (r : EReal)) := by
  have h0 := congrFun h ValueIdx.ix0
  dsimp only [Cert.Pre_finite_inputs.fn] at h0
  obtain ⟨hx, hy⟩ := IntOp.andi_eq_one.1 h0
  exact ⟨all_real x _ _ _ hx, all_real y _ _ _ hy⟩

/-- The float pattern 0x40000000 denotes the real number two. -/
theorem ofBits_two : (Ideal.ofBits .f32 0x40000000#32 : EReal) = ((2 : ℝ) : EReal) := by
  simp [Ideal.ofBits, Ideal.ieee]
  rw [← EReal.coe_mul]
  exact congrArg _ (by norm_num)

/-! ## One entry of the clamped table -/

/-- The squared norm of point `n` of the first cloud, broadcast to the table, reads the first argument at (g, n, k). -/
theorem idx_a (g : Fin 8) (n m : Fin 4096) (k : Fin 3) :
    idx_main_v1 (idx_main_v5 (idx_main_v7 (ix3 g n m))) k = ix3 g n k :=
  funext fun a => Fin.ext (by match a with | ⟨0, _⟩ => rfl | ⟨1, _⟩ => rfl | ⟨2, _⟩ => rfl)

/-- The squared norm of point `m` of the second cloud, broadcast to the table, reads the second argument at (g, m, k). -/
theorem idx_b (g : Fin 8) (n m : Fin 4096) (k : Fin 3) :
    idx_main_v3 (idx_main_v6 (idx_main_v8 (ix3 g n m))) k = ix3 g m k :=
  funext fun a => Fin.ext (by match a with | ⟨0, _⟩ => rfl | ⟨1, _⟩ => rfl | ⟨2, _⟩ => rfl)

/-- The inner product's left factor at table entry (g, n, m) is the first argument at (g, n, k). -/
theorem idx_l (g : Fin 8) (n m : Fin 4096) (k : Fin 3) :
    lidx_main_v4 (ix3 g n m) k = ix3 g n k :=
  funext fun a => Fin.ext (by match a with | ⟨0, _⟩ => rfl | ⟨1, _⟩ => rfl | ⟨2, _⟩ => rfl)

/-- The inner product's right factor at table entry (g, n, m) is the second argument at (g, m, k). -/
theorem idx_r (g : Fin 8) (n m : Fin 4096) (k : Fin 3) :
    ridx_main_v4 (ix3 g n m) k = ix3 g m k :=
  funext fun a => Fin.ext (by match a with | ⟨0, _⟩ => rfl | ⟨1, _⟩ => rfl | ⟨2, _⟩ => rfl)

/-- For real coordinates the expanded square is the sum of squared differences. -/
theorem expand (a0 a1 a2 b0 b1 b2 : ℝ) :
    (((0 : EReal) + ((a0 : EReal) * a0 + (a1 : EReal) * a1 + (a2 : EReal) * a2))
        + ((0 : EReal) + ((b0 : EReal) * b0 + (b1 : EReal) * b1 + (b2 : EReal) * b2)))
      - ((2 : ℝ) : EReal) * ((a0 : EReal) * b0 + (a1 : EReal) * b1 + (a2 : EReal) * b2)
    = (((0 : EReal) + ((a0 : EReal) - b0) * ((a0 : EReal) - b0)) + ((a1 : EReal) - b1) * ((a1 : EReal) - b1))
        + ((a2 : EReal) - b2) * ((a2 : EReal) - b2) := by
  rw [← EReal.coe_zero]
  simp only [← EReal.coe_mul, ← EReal.coe_add, ← EReal.coe_sub]
  exact congrArg _ (by ring)

/-- For real entries, the reference's clamped table entry (g, n, m) is the squared distance of the specification. -/
theorem v14_point (x0 x1 : FVec Ideal S8x4096x3 .f32)
    (hx0 : ∀ i, ∃ r : ℝ, x0 i = (r : EReal)) (hx1 : ∀ i, ∃ r : ℝ, x1 i = (r : EReal))
    (g : Fin 8) (n m : Fin 4096) :
    val_main_v14 (F := Ideal) x0 x1 (ix3 g n m) = Cert.Chamfer.sqd x0 x1 g n m := by
  rw [val_main_v14_apply, val_main_v12_apply, val_main_v13_apply, val_main_cst_2_apply, val_main_v9_apply,
    val_main_v11_apply, val_main_v10_apply, val_main_cst_1_apply, val_main_v4_apply, val_main_v7_apply,
    val_main_v8_apply, val_main_v5_apply, val_main_v6_apply, val_main_v1_apply, val_main_v3_apply,
    val_main_cst_apply, val_main_cst_0_apply]
  simp only [Fin.sum_univ_three, val_main_v0_apply, val_main_v2_apply, idx_a, idx_b, idx_l, idx_r,
    Ideal.maximumf_def, Ideal.subf_def, Ideal.addf_def, Ideal.mulf_def, Ideal.ofBits_def, Ideal.ofBits_zero_f32,
    ofBits_two]
  unfold Cert.Chamfer.sqd Cert.Chamfer.delta
  obtain ⟨a0, ha0⟩ := hx0 (ix3 g n 0)
  obtain ⟨a1, ha1⟩ := hx0 (ix3 g n 1)
  obtain ⟨a2, ha2⟩ := hx0 (ix3 g n 2)
  obtain ⟨b0, hb0⟩ := hx1 (ix3 g m 0)
  obtain ⟨b1, hb1⟩ := hx1 (ix3 g m 1)
  obtain ⟨b2, hb2⟩ := hx1 (ix3 g m 2)
  rw [ha0, ha1, ha2, hb0, hb1, hb2, expand]

/-! ## The two minima -/

/-- The table index (g, n) with coordinate `k` inserted on the last axis is (g, n, k). -/
theorem lift_d2 (h : S8x4096x4096.Reduces [2] S8x4096) (g : Fin 8) (n : Fin 4096) (k : Fin (S8x4096x4096.size 2)) :
    h.lift (ix2 g n) k = ix3 g n (⟨k.val, k.isLt⟩ : Fin 4096) := by
  funext c; apply Fin.ext
  fin_cases c <;> rfl

/-- The table index (g, m) with coordinate `k` inserted on the middle axis is (g, k, m). -/
theorem lift_d1 (h : S8x4096x4096.Reduces [1] S8x4096) (g : Fin 8) (m : Fin 4096) (k : Fin (S8x4096x4096.size 1)) :
    h.lift (ix2 g m) k = ix3 g (⟨k.val, k.isLt⟩ : Fin 4096) m := by
  funext c; apply Fin.ext
  fin_cases c <;> rfl

/-- Dropping the last axis of the 8 × 4096 × 4096 table leaves the 8 × 4096 shape. -/
theorem red_d2 : S8x4096x4096.Reduces [2] S8x4096 := by decide
/-- Dropping the middle axis leaves the same shape. -/
theorem red_d1 : S8x4096x4096.Reduces [1] S8x4096 := by decide

/-- From plus infinity, a fold of the minimum over a whole finite range is the infimum over the range. -/
theorem fold_minimumf_inf {K : Nat} (f : Fin K → EReal) :
    (Finset.univ : Finset (Fin K)).fold (FloatOps.minimumf (F := Ideal) (φ := .f32))
      (FloatOps.ofBits (F := Ideal) .f32 0x7F800000#32) f = ⨅ k : Fin K, f k := by
  rw [Cert.Chamfer.ofBits_inf]
  exact Cert.Chamfer.fold_min_eq_iInf f

/-- At (g, n) the minimum over the last axis is the infimum over `m` of the squared distances. -/
theorem v15_at (x0 x1 : FVec Ideal S8x4096x3 .f32)
    (hx0 : ∀ i, ∃ r : ℝ, x0 i = (r : EReal)) (hx1 : ∀ i, ∃ r : ℝ, x1 i = (r : EReal))
    (g : Fin 8) (n : Fin 4096) :
    val_main_v15 (F := Ideal) x0 x1 (ix2 g n) = ⨅ m : Fin 4096, Cert.Chamfer.sqd x0 x1 g n m := by
  unfold val_main_v15
  rw [Host.reduce_eq_fold_single FloatOps.minimumf _ _ reducesTo_S8x4096x4096_S8x4096_d2 red_d2 h_S_]
  exact (fold_minimumf_inf (K := 4096) _).trans (iInf_congr fun m =>
    (congrArg (val_main_v14 (F := Ideal) x0 x1) (lift_d2 red_d2 g n m)).trans (v14_point x0 x1 hx0 hx1 g n _))

/-- At (g, m) the minimum over the middle axis is the infimum over `n` of the squared distances. -/
theorem v16_at (x0 x1 : FVec Ideal S8x4096x3 .f32)
    (hx0 : ∀ i, ∃ r : ℝ, x0 i = (r : EReal)) (hx1 : ∀ i, ∃ r : ℝ, x1 i = (r : EReal))
    (g : Fin 8) (m : Fin 4096) :
    val_main_v16 (F := Ideal) x0 x1 (ix2 g m) = ⨅ n : Fin 4096, Cert.Chamfer.sqd x0 x1 g n m := by
  unfold val_main_v16
  rw [Host.reduce_eq_fold_single FloatOps.minimumf _ _ reducesTo_S8x4096x4096_S8x4096_d1 red_d1 h_S_]
  exact (fold_minimumf_inf (K := 4096) _).trans (iInf_congr fun n =>
    (congrArg (val_main_v14 (F := Ideal) x0 x1) (lift_d1 red_d1 g m n)).trans (v14_point x0 x1 hx0 hx1 g _ m))

/-- The reference's first table of minima is the distance from each point of the first cloud to the second cloud. -/
theorem ref_dist1 (x0 x1 : FVec Ideal S8x4096x3 .f32)
    (hx0 : ∀ i, ∃ r : ℝ, x0 i = (r : EReal)) (hx1 : ∀ i, ∃ r : ℝ, x1 i = (r : EReal)) :
    val_main_v15 (F := Ideal) x0 x1 = Cert.Chamfer.dist1 x0 x1 := by
  funext j
  rw [eq_ix2 j]
  exact v15_at x0 x1 hx0 hx1 (j 0) (j 1)

/-- The reference's second table of minima is the distance from each point of the second cloud to the first cloud. -/
theorem ref_dist2 (x0 x1 : FVec Ideal S8x4096x3 .f32)
    (hx0 : ∀ i, ∃ r : ℝ, x0 i = (r : EReal)) (hx1 : ∀ i, ∃ r : ℝ, x1 i = (r : EReal)) :
    val_main_v16 (F := Ideal) x0 x1 = Cert.Chamfer.dist2 x0 x1 := by
  funext j
  rw [eq_ix2 j]
  exact v16_at x0 x1 hx0 hx1 (j 0) (j 1)

/-! ## The result -/

/-- The reference's result is the mean of means of the two tables of minima. -/
theorem ref_result (x0 x1 : FVec Ideal S8x4096x3 .f32)
    (hx0 : ∀ i, ∃ r : ℝ, x0 i = (r : EReal)) (hx1 : ∀ i, ∃ r : ℝ, x1 i = (r : EReal)) :
    val_main_v21 (F := Ideal) x0 x1
      = Cert.Chamfer.meanOfMeans reducesTo_S8x4096_S_d0_1 h_S_ (Cert.Chamfer.dist1 x0 x1) (Cert.Chamfer.dist2 x0 x1) := by
  rw [← ref_dist1 x0 x1 hx0 hx1, ← ref_dist2 x0 x1 hx0 hx1]
  rfl

end Cert.ReferenceIdeal.RefValue

end
-- ==== Proof.KernelSteps.lean ====
/-
  The kernel's arithmetic at one grid point as pure steps, and the three conditions its body branches on.

  A grid point is (h, n, m): batch half, tile of the first cloud, tile of the second. From the two input blocks the body
  forms the 4 x 512 x 512 tile of clamped squared distances; `accStep` folds the tile's minimum along the second cloud's axis into the
  running row minimum kept in scratch, `o2Step` folds its minimum along the first cloud's axis into the 512 columns of
  the resident column-minimum block that this point's tile of the second cloud addresses, and leaves the other columns
  as they were. The running minima restart from plus infinity at m = 0 (rows) and at n = m = 0 (columns); the row
  minima are copied out at m = 7.
-/
import proofs.«148777_j45337674776760_2_alg».proof.Proof.Gen.Kernel.Frame
import proofs.«148777_j45337674776760_2_alg».proof.Proof.Gen.Kernel.Skeleton
import Idealize.ShloMosaic.Lib.WritesUnit
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body restarts the running row minimum: the point's third coordinate is zero. -/
abbrev cond0_0 (i : grid0.Coords) : Prop := (Scalar.cmpi .ne (Scalar.extui (Scalar.cmpi .eq (BitVec.ofNat 32 (i 2).val) 0#32)) 0#32) = 1#1
/-- Over the 128 points in row-major order: those divisible by 8. -/
theorem hcond0_0 : ∀ t : Fin cfg0.N, cond0_0 (grid0.coords t) ↔ t.val % 8 = 0 :=
  (by decide +kernel : ∀ t : Fin grid0.N, cond0_0 (grid0.coords t) ↔ t.val % 8 = 0)

/-- The body restarts the column minima: the second and third coordinates are zero. -/
abbrev cond0_1 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- Those divisible by 64. -/
theorem hcond0_1 : ∀ t : Fin cfg0.N, cond0_1 (grid0.coords t) ↔ t.val % 64 = 0 :=
  (by decide +kernel : ∀ t : Fin grid0.N, cond0_1 (grid0.coords t) ↔ t.val % 64 = 0)

/-- The body copies the row minima out: the third coordinate is 7. -/
abbrev cond0_2 (i : grid0.Coords) : Prop := k0_cond3 i = 1#1
/-- Those that are 7 modulo 8. -/
theorem hcond0_2 : ∀ t : Fin cfg0.N, cond0_2 (grid0.coords t) ↔ t.val % 8 = 7 :=
  (by decide +kernel : ∀ t : Fin grid0.N, cond0_2 (grid0.coords t) ↔ t.val % 8 = 7)

/-- The running row minimum after a point: the minimum of what it was and the tile's minimum over the second cloud's 512 points. -/
def accStep (x0 x1 : Vec F S4x3x512 .f32) (prev : Vec F S4x512 .f32) : Vec F S4x512 .f32 :=
  k0_pay2 (k0_pay9 x0 x1) (k0_pay10 x0) (k0_pay11 x1) prev

/-- The rectangle of the column-minimum block that the point's tile of the second cloud addresses. -/
abbrev colRect (i : grid0.Coords) : Rect S4x1x4096 := Rect.unit (s := S4x1x4096) (k0_off1 i) S4x1x512.size (k0_off1_inb i)

/-- The column-minimum block after a point: inside the point's rectangle the minimum of what was there and the tile's
    minimum over the first cloud's 512 points, outside it what was there. -/
def o2Step (i : grid0.Coords) (x0 x1 : Vec F S4x3x512 .f32) (prev : Vec F S4x1x4096 .f32) : Vec F S4x1x4096 .f32 :=
  fun y => if h : ∀ a, k0_off1 i a ≤ (y a).val ∧ (y a).val < k0_off1 i a + S4x1x512.size a then
      k0_pay3 (k0_pay9 x0 x1) (k0_pay10 x0) (k0_pay11 x1) (View.ld prev (colRect i))
        (Rect.unitLocal (s := S4x1x4096) (off := k0_off1 i) (size := S4x1x512.size) y h)
    else prev y

/-- Each window's current staging buffer at a point, as the pipeline passes it to the body, and that it is a whole buffer. -/
abbrev ms0_0 (t : Fin cfg0.N) : Memref sig .tc .vmem S4x3x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x3x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x1x4096 .f32 := win0_3.stage (cfg0.slots t 3)
abbrev hs0_3 (t : Fin cfg0.N) : (ms0_3 t).IsWhole := hstage0_3 ((cfg0.slots t 3).cast nbuf0_3)
/-- The scratch buffer that carries the running row minimum between points. -/
abbrev scM0_0 : Memref sig .tc .vmem S4x512 .f32 := Memref.whole cc0_scratch0

/-- What the pipeline lends the body besides the windows: the scratch buffer at some contents and the generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The two input windows are live at every point. -/
theorem liveAt0_0 : ∀ t : Fin cfg0.N, cfg0.idle 0 (grid0.coords t) = false := by decide +kernel
theorem liveAt0_1 : ∀ t : Fin cfg0.N, cfg0.idle 1 (grid0.coords t) = false := by decide +kernel
/-- The column-minimum window is live at every point. -/
theorem liveAt0_3 : ∀ t : Fin cfg0.N, cfg0.idle 3 (grid0.coords t) = false := by decide +kernel
/-- The row-minimum window is idle exactly where the third coordinate is not 7. -/
theorem idleAt0_2 : ∀ t : Fin cfg0.N, cfg0.idle 2 (grid0.coords t) = !decide (t.val % 8 = 7) := by decide +kernel

end Cert.Kernel.Gen

end
-- ==== Proof.KernelRunA.lean ====
/-
  The kernel body run at a point that restarts both running minima (n = m = 0): from the two input blocks, the row-minimum output buffer, the column-minimum block
  and the scratch at given contents, it ends with the inputs as they were, the row-minimum buffer as it was, the column-minimum
  block advanced by `o2Step` and the scratch by `accStep` from plus infinity.
-/
import proofs.«148777_j45337674776760_2_alg».proof.Proof.KernelSteps

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz2 : (![0, 0] : Fin 2 → ℕ) = fun _ => 0 := by funext a; fin_cases a <;> rfl
private theorem hz3 : (![0, 0, 0] : Fin 3 → ℕ) = fun _ => 0 := by funext a; fin_cases a <;> rfl

set_option maxHeartbeats 2000000 in
theorem kernelRun0_A (c : Dev nD) (i : grid0.Coords) (arg3 : Memref sig .tc .vmem S4x3x512 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x1x4096 .f32) (harg6 : arg6.IsWhole) (arg7 : Memref sig .tc .vmem S4x512 .f32) (harg7 : arg7.IsWhole) (hc0 : cond0_0 i) (hc1 : cond0_1 i) (hc2 : ¬cond0_2 i)
    (x0 : Vec F S4x3x512 .f32) (x1 : Vec F S4x3x512 .f32) (y2 : Vec F S4x1x512 .f32) (y3 : Vec F S4x1x4096 .f32) (xs0 : Vec F S4x512 .f32)
    (E : Set ℕ) (K : PUnit → sProp 𝕄) :
    iprop(owns (c : Thread nD τ) arg3 fullShare x0 ∗ owns (c : Thread nD τ) arg4 fullShare x1 ∗ owns (c : Thread nD τ) arg5 fullShare y2 ∗ owns (c : Thread nD τ) arg6 fullShare y3 ∗ owns (c : Thread nD τ) arg7 fullShare xs0
        ∗ (iprop(owns (c : Thread nD τ) arg3 fullShare x0 ∗ owns (c : Thread nD τ) arg4 fullShare x1 ∗ owns (c : Thread nD τ) arg5 fullShare y2 ∗ owns (c : Thread nD τ) arg6 fullShare (o2Step i x0 x1 (k0_pay6 (F := F))) ∗ owns (c : Thread nD τ) arg7 fullShare (accStep x0 x1 (k0_pay5 (F := F)))) -∗ K ⟨⟩))
      ⊢ wp frame (wpE (defs₀ (F := F)) Variants.none c none) E (cc0__fused_chamfer_kernel i arg3 harg3 arg4 harg4 arg5 harg5 arg6 harg6 arg7 harg7) K := by
  simp only [cc0__fused_chamfer_kernel_eq_skeleton]; unfold cc0__fused_chamfer_kernel_skel
  simp only [k0_part1_eq_skeleton]
  unfold owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg3.eq_unread hf0; obtain rfl := harg4.eq_unread hf1; obtain rfl := harg5.eq_unread hf2; obtain rfl := harg6.eq_unread hf3; obtain rfl := harg7.eq_unread hfs0
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; swap; · iexact H2
    ipureintro
    exact harg5.read_unread _
  isplitl [H3]
  · iexists _; isplitr; swap; · iexact H3
    ipureintro
    funext y
    unfold o2Step
    sl_unfold_run_names
    rw [View.read_writes_cons_unit _ _ _ _ _ y rfl]
    have e6 : View.read (Elt F) arg6.view (arg6.view.writes (Elt F) arg6.view.junk [(⟨Rect.unit ![0, 0, 0] S4x1x4096.size inb_S4x1x4096_S4x1x4096_0_0_0, k0_pay6 (F := F)⟩ : View.Piece (Elt F) S4x1x4096 .f32)]) = k0_pay6 (F := F) := by
      rw [View.read_writes_eq_canon _ _ _ (fun y => ⟨_, List.mem_cons_self, View.mem_set_unit_zero hz3 inb_S4x1x4096_S4x1x4096_0_0_0 y⟩), View.canon_unit_zero hz3]
    simp only [View.readAt_eq_ld, e6, harg3.read_unread, harg4.read_unread, View.ld_unit_zero (S := S4x3x512) hz3]
    try rfl
  · iexists _; isplitr; swap; · iexact HS0
    ipureintro
    unfold accStep
    sl_unfold_run_names
    rw [View.read_writes_eq_canon _ _ _ (fun y => ⟨_, List.mem_cons_self, View.mem_set_unit_zero hz2 inb_S4x512_S4x512_0_0 y⟩), View.canon_cons_unit_zero hz2]
    simp only [View.readAt_eq_ld, harg3.read_unread, harg4.read_unread, harg6.read_unread, harg7.read_unread, View.ld_unit_zero (S := S4x512) hz2, View.ld_unit_zero (S := S4x3x512) hz3, View.readCov_unit_zero (S := S4x512) arg7.view hz2]
    try rfl

end Cert.Kernel.Gen

end
-- ==== Proof.KernelRunB.lean ====
/-
  The kernel body run at a point in the middle of a row of tiles (0 < m < 7): from the two input blocks, the row-minimum output buffer, the column-minimum block
  and the scratch at given contents, it ends with the inputs as they were, the row-minimum buffer as it was, the column-minimum
  block advanced by `o2Step` and the scratch by `accStep`.
-/
import proofs.«148777_j45337674776760_2_alg».proof.Proof.KernelRunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz2 : (![0, 0] : Fin 2 → ℕ) = fun _ => 0 := by funext a; fin_cases a <;> rfl
private theorem hz3 : (![0, 0, 0] : Fin 3 → ℕ) = fun _ => 0 := by funext a; fin_cases a <;> rfl

set_option maxHeartbeats 2000000 in
theorem kernelRun0_B (c : Dev nD) (i : grid0.Coords) (arg3 : Memref sig .tc .vmem S4x3x512 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x1x4096 .f32) (harg6 : arg6.IsWhole) (arg7 : Memref sig .tc .vmem S4x512 .f32) (harg7 : arg7.IsWhole) (hc0 : ¬cond0_0 i) (hc1 : ¬cond0_1 i) (hc2 : ¬cond0_2 i)
    (x0 : Vec F S4x3x512 .f32) (x1 : Vec F S4x3x512 .f32) (y2 : Vec F S4x1x512 .f32) (y3 : Vec F S4x1x4096 .f32) (xs0 : Vec F S4x512 .f32)
    (E : Set ℕ) (K : PUnit → sProp 𝕄) :
    iprop(owns (c : Thread nD τ) arg3 fullShare x0 ∗ owns (c : Thread nD τ) arg4 fullShare x1 ∗ owns (c : Thread nD τ) arg5 fullShare y2 ∗ owns (c : Thread nD τ) arg6 fullShare y3 ∗ owns (c : Thread nD τ) arg7 fullShare xs0
        ∗ (iprop(owns (c : Thread nD τ) arg3 fullShare x0 ∗ owns (c : Thread nD τ) arg4 fullShare x1 ∗ owns (c : Thread nD τ) arg5 fullShare y2 ∗ owns (c : Thread nD τ) arg6 fullShare (o2Step i x0 x1 y3) ∗ owns (c : Thread nD τ) arg7 fullShare (accStep x0 x1 xs0)) -∗ K ⟨⟩))
      ⊢ wp frame (wpE (defs₀ (F := F)) Variants.none c none) E (cc0__fused_chamfer_kernel i arg3 harg3 arg4 harg4 arg5 harg5 arg6 harg6 arg7 harg7) K := by
  simp only [cc0__fused_chamfer_kernel_eq_skeleton]; unfold cc0__fused_chamfer_kernel_skel
  simp only [k0_part1_eq_skeleton]
  unfold owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg3.eq_unread hf0; obtain rfl := harg4.eq_unread hf1; obtain rfl := harg5.eq_unread hf2; obtain rfl := harg6.eq_unread hf3; obtain rfl := harg7.eq_unread hfs0
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; swap; · iexact H2
    ipureintro
    exact harg5.read_unread _
  isplitl [H3]
  · iexists _; isplitr; swap; · iexact H3
    ipureintro
    funext y
    unfold o2Step
    sl_unfold_run_names
    rw [View.read_writes_cons_unit _ _ _ _ _ y rfl]
    simp only [View.writes_nil, View.readAt_eq_ld, harg3.read_unread, harg4.read_unread, harg6.read_unread, View.ld_unit_zero (S := S4x3x512) hz3]
    try rfl
  · iexists _; isplitr; swap; · iexact HS0
    ipureintro
    unfold accStep
    sl_unfold_run_names
    rw [View.read_writes_eq_canon _ _ _ (fun y => ⟨_, List.mem_cons_self, View.mem_set_unit_zero hz2 inb_S4x512_S4x512_0_0 y⟩), View.canon_cons_unit_zero hz2]
    simp only [View.readAt_eq_ld, harg3.read_unread, harg4.read_unread, harg6.read_unread, harg7.read_unread, View.ld_unit_zero (S := S4x512) hz2, View.ld_unit_zero (S := S4x3x512) hz3, View.readCov_unit_zero (S := S4x512) arg7.view hz2]
    try rfl

end Cert.Kernel.Gen

end
-- ==== Proof.KernelRunC.lean ====
/-
  The kernel body run at the last point of a row of tiles (m = 7), which copies the row minima out: from the two input blocks, the row-minimum output buffer, the column-minimum block
  and the scratch at given contents, it ends with the inputs as they were, the row-minimum buffer at the new running row minimum, the column-minimum
  block advanced by `o2Step` and the scratch by `accStep`.
-/
import proofs.«148777_j45337674776760_2_alg».proof.Proof.KernelRunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz2 : (![0, 0] : Fin 2 → ℕ) = fun _ => 0 := by funext a; fin_cases a <;> rfl
private theorem hz3 : (![0, 0, 0] : Fin 3 → ℕ) = fun _ => 0 := by funext a; fin_cases a <;> rfl

set_option maxHeartbeats 2000000 in
theorem kernelRun0_C (c : Dev nD) (i : grid0.Coords) (arg3 : Memref sig .tc .vmem S4x3x512 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x1x4096 .f32) (harg6 : arg6.IsWhole) (arg7 : Memref sig .tc .vmem S4x512 .f32) (harg7 : arg7.IsWhole) (hc0 : ¬cond0_0 i) (hc1 : ¬cond0_1 i) (hc2 : cond0_2 i)
    (x0 : Vec F S4x3x512 .f32) (x1 : Vec F S4x3x512 .f32) (y2 : Vec F S4x1x512 .f32) (y3 : Vec F S4x1x4096 .f32) (xs0 : Vec F S4x512 .f32)
    (E : Set ℕ) (K : PUnit → sProp 𝕄) :
    iprop(owns (c : Thread nD τ) arg3 fullShare x0 ∗ owns (c : Thread nD τ) arg4 fullShare x1 ∗ owns (c : Thread nD τ) arg5 fullShare y2 ∗ owns (c : Thread nD τ) arg6 fullShare y3 ∗ owns (c : Thread nD τ) arg7 fullShare xs0
        ∗ (iprop(owns (c : Thread nD τ) arg3 fullShare x0 ∗ owns (c : Thread nD τ) arg4 fullShare x1 ∗ owns (c : Thread nD τ) arg5 fullShare (k0_pay4 (accStep x0 x1 xs0)) ∗ owns (c : Thread nD τ) arg6 fullShare (o2Step i x0 x1 y3) ∗ owns (c : Thread nD τ) arg7 fullShare (accStep x0 x1 xs0)) -∗ K ⟨⟩))
      ⊢ wp frame (wpE (defs₀ (F := F)) Variants.none c none) E (cc0__fused_chamfer_kernel i arg3 harg3 arg4 harg4 arg5 harg5 arg6 harg6 arg7 harg7) K := by
  simp only [cc0__fused_chamfer_kernel_eq_skeleton]; unfold cc0__fused_chamfer_kernel_skel
  simp only [k0_part1_eq_skeleton]
  unfold owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg3.eq_unread hf0; obtain rfl := harg4.eq_unread hf1; obtain rfl := harg5.eq_unread hf2; obtain rfl := harg6.eq_unread hf3; obtain rfl := harg7.eq_unread hfs0
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; swap; · iexact H2
    ipureintro
    unfold accStep
    sl_unfold_run_names
    rw [View.read_writes_eq_canon _ _ _ (fun y => ⟨_, List.mem_cons_self, View.mem_set_unit_zero hz3 inb_S4x1x512_S4x1x512_0_0_0 y⟩), View.canon_cons_unit_zero hz3]
    simp only [View.readAt_eq_ld, harg3.read_unread, harg4.read_unread, harg6.read_unread, harg7.read_unread, View.ld_unit_zero (S := S4x512) hz2, View.ld_unit_zero (S := S4x3x512) hz3, View.readCov_unit_zero (S := S4x512) arg7.view hz2]
    try rfl
  isplitl [H3]
  · iexists _; isplitr; swap; · iexact H3
    ipureintro
    funext y
    unfold o2Step
    sl_unfold_run_names
    rw [View.read_writes_cons_unit _ _ _ _ _ y rfl]
    simp only [View.writes_nil, View.readAt_eq_ld, harg3.read_unread, harg4.read_unread, harg6.read_unread, View.ld_unit_zero (S := S4x3x512) hz3]
    try rfl
  · iexists _; isplitr; swap; · iexact HS0
    ipureintro
    unfold accStep
    sl_unfold_run_names
    rw [View.read_writes_eq_canon _ _ _ (fun y => ⟨_, List.mem_cons_self, View.mem_set_unit_zero hz2 inb_S4x512_S4x512_0_0 y⟩), View.canon_cons_unit_zero hz2]
    simp only [View.readAt_eq_ld, harg3.read_unread, harg4.read_unread, harg6.read_unread, harg7.read_unread, View.ld_unit_zero (S := S4x512) hz2, View.ld_unit_zero (S := S4x3x512) hz3, View.readCov_unit_zero (S := S4x512) arg7.view hz2]
    try rfl

end Cert.Kernel.Gen

end
-- ==== Proof.KernelRunD.lean ====
/-
  The kernel body run at the first point of a later row of tiles (m = 0, n > 0), which restarts the row minima only: from the two input blocks, the row-minimum output buffer, the column-minimum block
  and the scratch at given contents, it ends with the inputs as they were, the row-minimum buffer as it was, the column-minimum
  block advanced by `o2Step` and the scratch by `accStep` from plus infinity.
-/
import proofs.«148777_j45337674776760_2_alg».proof.Proof.KernelRunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz2 : (![0, 0] : Fin 2 → ℕ) = fun _ => 0 := by funext a; fin_cases a <;> rfl
private theorem hz3 : (![0, 0, 0] : Fin 3 → ℕ) = fun _ => 0 := by funext a; fin_cases a <;> rfl

set_option maxHeartbeats 2000000 in
theorem kernelRun0_D (c : Dev nD) (i : grid0.Coords) (arg3 : Memref sig .tc .vmem S4x3x512 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x1x4096 .f32) (harg6 : arg6.IsWhole) (arg7 : Memref sig .tc .vmem S4x512 .f32) (harg7 : arg7.IsWhole) (hc0 : cond0_0 i) (hc1 : ¬cond0_1 i) (hc2 : ¬cond0_2 i)
    (x0 : Vec F S4x3x512 .f32) (x1 : Vec F S4x3x512 .f32) (y2 : Vec F S4x1x512 .f32) (y3 : Vec F S4x1x4096 .f32) (xs0 : Vec F S4x512 .f32)
    (E : Set ℕ) (K : PUnit → sProp 𝕄) :
    iprop(owns (c : Thread nD τ) arg3 fullShare x0 ∗ owns (c : Thread nD τ) arg4 fullShare x1 ∗ owns (c : Thread nD τ) arg5 fullShare y2 ∗ owns (c : Thread nD τ) arg6 fullShare y3 ∗ owns (c : Thread nD τ) arg7 fullShare xs0
        ∗ (iprop(owns (c : Thread nD τ) arg3 fullShare x0 ∗ owns (c : Thread nD τ) arg4 fullShare x1 ∗ owns (c : Thread nD τ) arg5 fullShare y2 ∗ owns (c : Thread nD τ) arg6 fullShare (o2Step i x0 x1 y3) ∗ owns (c : Thread nD τ) arg7 fullShare (accStep x0 x1 (k0_pay5 (F := F)))) -∗ K ⟨⟩))
      ⊢ wp frame (wpE (defs₀ (F := F)) Variants.none c none) E (cc0__fused_chamfer_kernel i arg3 harg3 arg4 harg4 arg5 harg5 arg6 harg6 arg7 harg7) K := by
  simp only [cc0__fused_chamfer_kernel_eq_skeleton]; unfold cc0__fused_chamfer_kernel_skel
  simp only [k0_part1_eq_skeleton]
  unfold owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg3.eq_unread hf0; obtain rfl := harg4.eq_unread hf1; obtain rfl := harg5.eq_unread hf2; obtain rfl := harg6.eq_unread hf3; obtain rfl := harg7.eq_unread hfs0
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; swap; · iexact H2
    ipureintro
    exact harg5.read_unread _
  isplitl [H3]
  · iexists _; isplitr; swap; · iexact H3
    ipureintro
    funext y
    unfold o2Step
    sl_unfold_run_names
    rw [View.read_writes_cons_unit _ _ _ _ _ y rfl]
    simp only [View.writes_nil, View.readAt_eq_ld, harg3.read_unread, harg4.read_unread, harg6.read_unread, View.ld_unit_zero (S := S4x3x512) hz3]
    try rfl
  · iexists _; isplitr; swap; · iexact HS0
    ipureintro
    unfold accStep
    sl_unfold_run_names
    rw [View.read_writes_eq_canon _ _ _ (fun y => ⟨_, List.mem_cons_self, View.mem_set_unit_zero hz2 inb_S4x512_S4x512_0_0 y⟩), View.canon_cons_unit_zero hz2]
    simp only [View.readAt_eq_ld, harg3.read_unread, harg4.read_unread, harg6.read_unread, harg7.read_unread, View.ld_unit_zero (S := S4x512) hz2, View.ld_unit_zero (S := S4x3x512) hz3, View.readCov_unit_zero (S := S4x512) arg7.view hz2]
    try rfl

end Cert.Kernel.Gen

end
-- ==== Proof.KernelData.lean ====
/-
  The proof data of the kernel's one pipeline and its run.

  After the body at point t (in row-major order over the 2 x 8 x 8 grid) the scratch holds the running row minimum
  `accAt t`, restarted at every point divisible by 8; the resident column-minimum block holds `o2At t`, restarted at
  every point divisible by 64; and at the points that are 7 modulo 8 the row-minimum buffer holds the running row
  minimum, copied out. Each is the step of the point applied to what the point before left. With these named,
  the body's run at each of the four kinds of point is the obligation the pipeline asks at every point, and the
  pipeline's launch theorem gives the whole run: every array ends as its write-backs left it.
-/
import proofs.«148777_j45337674776760_2_alg».proof.Proof.KernelRunD

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The running row minimum after point `n`. -/
def accAt (c : Dev nD) : (n : ℕ) → n < cfg0.N → Vec F S4x512 .f32
  | 0, hn => accStep (iblk m c 0 ⟨0, hn⟩) (iblk m c 1 ⟨0, hn⟩) (k0_pay5 (F := F))
  | n + 1, hn =>
    if (n + 1) % 8 = 0 then accStep (iblk m c 0 ⟨n + 1, hn⟩) (iblk m c 1 ⟨n + 1, hn⟩) (k0_pay5 (F := F))
    else accStep (iblk m c 0 ⟨n + 1, hn⟩) (iblk m c 1 ⟨n + 1, hn⟩) (accAt c n (Nat.lt_of_succ_lt hn))

/-- The column-minimum block after point `n`. -/
def o2At (c : Dev nD) : (n : ℕ) → n < cfg0.N → Vec F S4x1x4096 .f32
  | 0, hn => o2Step (grid0.coords ⟨0, hn⟩) (iblk m c 0 ⟨0, hn⟩) (iblk m c 1 ⟨0, hn⟩) (k0_pay6 (F := F))
  | n + 1, hn =>
    if (n + 1) % 64 = 0 then o2Step (grid0.coords ⟨n + 1, hn⟩) (iblk m c 0 ⟨n + 1, hn⟩) (iblk m c 1 ⟨n + 1, hn⟩) (k0_pay6 (F := F))
    else o2Step (grid0.coords ⟨n + 1, hn⟩) (iblk m c 0 ⟨n + 1, hn⟩) (iblk m c 1 ⟨n + 1, hn⟩) (o2At c n (Nat.lt_of_succ_lt hn))

/-- At a point divisible by 8 the running row minimum restarts from plus infinity. -/
theorem accAt_reset (c : Dev nD) (t : Fin cfg0.N) (h0 : t.val % 8 = 0) :
    accAt m c t.val t.isLt = accStep (iblk m c 0 t) (iblk m c 1 t) (k0_pay5 (F := F)) := by
  obtain ⟨n, hn⟩ := t
  cases n with
  | zero => rfl
  | succ n => exact if_pos h0
/-- At any other point it continues from the point before. -/
theorem accAt_step (c : Dev nD) (t : Fin cfg0.N) (h0 : ¬t.val % 8 = 0) :
    accAt m c t.val t.isLt = accStep (iblk m c 0 t) (iblk m c 1 t) (accAt m c (t.val - 1) (Nat.lt_of_le_of_lt (Nat.sub_le _ _) t.isLt)) := by
  obtain ⟨n, hn⟩ := t
  cases n with
  | zero => exact absurd (Nat.zero_mod _) h0
  | succ n => exact if_neg h0
/-- At a point divisible by 64 the column minima restart from plus infinity. -/
theorem o2At_reset (c : Dev nD) (t : Fin cfg0.N) (h1 : t.val % 64 = 0) :
    o2At m c t.val t.isLt = o2Step (grid0.coords t) (iblk m c 0 t) (iblk m c 1 t) (k0_pay6 (F := F)) := by
  obtain ⟨n, hn⟩ := t
  cases n with
  | zero => rfl
  | succ n => exact if_pos h1
/-- At any other point they continue from the point before. -/
theorem o2At_step (c : Dev nD) (t : Fin cfg0.N) (h1 : ¬t.val % 64 = 0) :
    o2At m c t.val t.isLt = o2Step (grid0.coords t) (iblk m c 0 t) (iblk m c 1 t) (o2At m c (t.val - 1) (Nat.lt_of_le_of_lt (Nat.sub_le _ _) t.isLt)) := by
  obtain ⟨n, hn⟩ := t
  cases n with
  | zero => exact absurd (Nat.zero_mod _) h1
  | succ n => exact if_neg h1

/-- What the pipeline lends the body before point `n`: before the first point the scratch at anything; afterwards the
    scratch at the running row minimum the point before left; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) scM0_0 fullShare (accAt m c (n - 1) (by omega))) ∗ (∃ r, prngReg c r)) := by
  cases n with
  | zero => exact absurd rfl hz
  | succ n => rfl

/-- The proof data: the arrays as the region finds them; after the body at a point each input's buffer at its block,
    the row-minimum buffer at the running row minimum (read where it is copied out), the column-minimum block at `o2At`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay4 (accAt m c t.val t.isLt)
    | ⟨3, _⟩ => o2At m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = k0_pay4 (accAt m c t.val t.isLt) := by dsimp only [dats]
theorem after0_3 (c : Dev nD) (t : Fin cfg0.N) : (dats m 0 c).after 3 t = o2At m c t.val t.isLt := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The column-minimum block is written back after the points that are 63 modulo 64: at a point divisible by 64 its buffer is fresh. -/
theorem before0_3_reset (c : Dev nD) (t : Fin cfg0.N) (h1 : t.val % 64 = 0) (d) : (dats m 0 c).before 3 t d = d :=
  (dats m 0 c).before_out_reset 3 rfl t (by
    by_cases hz : t.val = 0
    · exact .inl hz
    · exact .inr ⟨hz, (flush0_3 _).mpr (by show (t.val - 1) % 64 = 63; omega)⟩) d
/-- At any other point it holds what the point before left. -/
theorem before0_3_kept (c : Dev nD) (t : Fin cfg0.N) (h1 : ¬t.val % 64 = 0) (d) :
    (dats m 0 c).before 3 t d = o2At m c (t.val - 1) (Nat.lt_of_le_of_lt (Nat.sub_le _ _) t.isLt) :=
  ((dats m 0 c).before_out_kept 3 rfl t (fun h => h1 (by rw [h])) (Bool.eq_false_iff.mpr fun h => by
      have := (flush0_3 _).mp h
      have h' : (t.val - 1) % 64 = 63 := this
      omega) (fun _ => rfl) (fun _ _ => rfl) d).trans (after0_3 m c _)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 6400000 in
/-- The body at any point: which of the four kinds of point it is decides which run applies; the scratch and the
    column-minimum block are handed over at what the point before left (or at anything where the body restarts them). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 8 = 0
  · by_cases h1 : t.val % 64 = 0
    · have h2 : ¬t.val % 8 = 7 := by omega
      rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 3 t = owns (c : Thread nD τ) (ms0_3 t) fullShare ((dats m 0 c).after 3 t) from by
      unfold Dat.leavesExact; rw [liveAt0_3 t], after0_3]
      rw [(dats m 0 c).leavesExact_idle 2 t (by rw [idleAt0_2 t, decide_eq_false h2]; rfl) (Bool.eq_false_iff.mpr fun h => h2 ((flush0_2 t).mp h))]
      simp only [before0_3_reset m c t h1]
      rw [accAt_reset m c t h0, o2At_reset m c t h1]
      by_cases hz : t.val = 0
      · rw [PhiS_castSucc m c t, PhiS_zero m c _ _ hz, PhiA0_eq]
        iintro ⟨⟨⟨%ds, HS0⟩, Hg⟩, Ho, ⟨%d0, H0⟩, ⟨%d1, H1⟩, ⟨%d2, H2⟩, ⟨%d3, H3⟩⟩
        iapply (kernelRun0_A c (grid0.coords t) _ _ _ _ _ _ _ _ _ _ ((hcond0_0 t).mpr h0) ((hcond0_1 t).mpr h1) (fun h => h2 ((hcond0_2 t).mp h)) (iblk m c 0 t) (iblk m c 1 t) _ _ ds Set.univ _)
        isplitl [H0]; · iexact H0
        isplitl [H1]; · iexact H1
        isplitl [H2]; · iexact H2
        isplitl [H3]; · iexact H3
        isplitl [HS0]; · iexact HS0
        iintro ⟨H0, H1, H2, H3, HS0⟩
        isplitl [HS0 Hg]
        · isplitl [HS0]; · iexact HS0
          iexact Hg
        isplitl [Ho]; · iexact Ho
        isplitl [H0]; · iexact H0
        isplitl [H1]; · iexact H1
        isplitl [H2]; · iexists _; iexact H2
        iexact H3
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply (kernelRun0_A c (grid0.coords t) _ _ _ _ _ _ _ _ _ _ ((hcond0_0 t).mpr h0) ((hcond0_1 t).mpr h1) (fun h => h2 ((hcond0_2 t).mp h)) (iblk m c 0 t) (iblk m c 1 t) _ _ _ Set.univ _)
        isplitl [H0]; · iexact H0
        isplitl [H1]; · iexact H1
        isplitl [H2]; · iexact H2
        isplitl [H3]; · iexact H3
        isplitl [HS0]; · iexact HS0
        iintro ⟨H0, H1, H2, H3, HS0⟩
        isplitl [HS0 Hg]
        · isplitl [HS0]; · iexact HS0
          iexact Hg
        isplitl [Ho]; · iexact Ho
        isplitl [H0]; · iexact H0
        isplitl [H1]; · iexact H1
        isplitl [H2]; · iexists _; iexact H2
        iexact H3
    · have h2 : ¬t.val % 8 = 7 := by omega
      rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 3 t = owns (c : Thread nD τ) (ms0_3 t) fullShare ((dats m 0 c).after 3 t) from by
      unfold Dat.leavesExact; rw [liveAt0_3 t], after0_3]
      rw [(dats m 0 c).leavesExact_idle 2 t (by rw [idleAt0_2 t, decide_eq_false h2]; rfl) (Bool.eq_false_iff.mpr fun h => h2 ((flush0_2 t).mp h))]
      simp only [before0_3_kept m c t h1]
      rw [accAt_reset m c t h0, o2At_step m c t h1]
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply (kernelRun0_D c (grid0.coords t) _ _ _ _ _ _ _ _ _ _ ((hcond0_0 t).mpr h0) (fun h => h1 ((hcond0_1 t).mp h)) (fun h => h2 ((hcond0_2 t).mp h)) (iblk m c 0 t) (iblk m c 1 t) _ _ _ Set.univ _)
        isplitl [H0]; · iexact H0
        isplitl [H1]; · iexact H1
        isplitl [H2]; · iexact H2
        isplitl [H3]; · iexact H3
        isplitl [HS0]; · iexact HS0
        iintro ⟨H0, H1, H2, H3, HS0⟩
        isplitl [HS0 Hg]
        · isplitl [HS0]; · iexact HS0
          iexact Hg
        isplitl [Ho]; · iexact Ho
        isplitl [H0]; · iexact H0
        isplitl [H1]; · iexact H1
        isplitl [H2]; · iexists _; iexact H2
        iexact H3
  · have h1 : ¬t.val % 64 = 0 := by omega
    by_cases h2 : t.val % 8 = 7
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 3 t = owns (c : Thread nD τ) (ms0_3 t) fullShare ((dats m 0 c).after 3 t) from by
      unfold Dat.leavesExact; rw [liveAt0_3 t], after0_3]
      rw [show (dats m 0 c).leavesExact 2 t = owns (c : Thread nD τ) (ms0_2 t) fullShare ((dats m 0 c).after 2 t) from by
      unfold Dat.leavesExact; rw [idleAt0_2 t, decide_eq_true h2]; rfl, after0_2]
      simp only [before0_3_kept m c t h1]
      rw [accAt_step m c t h0, o2At_step m c t h1]
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply (kernelRun0_C c (grid0.coords t) _ _ _ _ _ _ _ _ _ _ (fun h => h0 ((hcond0_0 t).mp h)) (fun h => h1 ((hcond0_1 t).mp h)) ((hcond0_2 t).mpr h2) (iblk m c 0 t) (iblk m c 1 t) _ _ _ Set.univ _)
        isplitl [H0]; · iexact H0
        isplitl [H1]; · iexact H1
        isplitl [H2]; · iexact H2
        isplitl [H3]; · iexact H3
        isplitl [HS0]; · iexact HS0
        iintro ⟨H0, H1, H2, H3, HS0⟩
        isplitl [HS0 Hg]
        · isplitl [HS0]; · iexact HS0
          iexact Hg
        isplitl [Ho]; · iexact Ho
        isplitl [H0]; · iexact H0
        isplitl [H1]; · iexact H1
        isplitl [H2]; · iexact H2
        iexact H3
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 3 t = owns (c : Thread nD τ) (ms0_3 t) fullShare ((dats m 0 c).after 3 t) from by
      unfold Dat.leavesExact; rw [liveAt0_3 t], after0_3]
      rw [(dats m 0 c).leavesExact_idle 2 t (by rw [idleAt0_2 t, decide_eq_false h2]; rfl) (Bool.eq_false_iff.mpr fun h => h2 ((flush0_2 t).mp h))]
      simp only [before0_3_kept m c t h1]
      rw [accAt_step m c t h0, o2At_step m c t h1]
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply (kernelRun0_B c (grid0.coords t) _ _ _ _ _ _ _ _ _ _ (fun h => h0 ((hcond0_0 t).mp h)) (fun h => h1 ((hcond0_1 t).mp h)) (fun h => h2 ((hcond0_2 t).mp h)) (iblk m c 0 t) (iblk m c 1 t) _ _ _ Set.univ _)
        isplitl [H0]; · iexact H0
        isplitl [H1]; · iexact H1
        isplitl [H2]; · iexact H2
        isplitl [H3]; · iexact H3
        isplitl [HS0]; · iexact HS0
        iintro ⟨H0, H1, H2, H3, HS0⟩
        isplitl [HS0 Hg]
        · isplitl [HS0]; · iexact HS0
          iexact Hg
        isplitl [Ho]; · iexact Ho
        isplitl [H0]; · iexact H0
        isplitl [H1]; · iexact H1
        isplitl [H2]; · iexists _; iexact H2
        iexact H3

/-- The pipeline's obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back, the scratch's contents forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA0_eq]
  iintro ⟨HS0, Hg⟩
  isplitl [HS0]
  · iexists _; iexact HS0
  iexact Hg

set_option backward.isDefEq.respectTransparency.types false in
/-- The whole run: every weakly fair execution of the program terminates, each array of the pipeline ends as its
    write-backs left it, and every other buffer as the host lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (fun c w => A_eq m c w) (run_main m ρ)

end Cert.Kernel.Gen

end
-- ==== Proof.KernelIdealSteps.lean ====
/-
  The kernel's arithmetic at one grid point as pure steps, and the three conditions its body branches on.

  A grid point is (h, n, m): batch half, tile of the first cloud, tile of the second. From the two input blocks the body
  forms the 4 x 512 x 512 tile of clamped squared distances; `accStep` folds the tile's minimum along the second cloud's axis into the
  running row minimum kept in scratch, `o2Step` folds its minimum along the first cloud's axis into the 512 columns of
  the resident column-minimum block that this point's tile of the second cloud addresses, and leaves the other columns
  as they were. The running minima restart from plus infinity at m = 0 (rows) and at n = m = 0 (columns); the row
  minima are copied out at m = 7.
-/
import proofs.«148777_j45337674776760_2_alg».proof.Proof.Gen.KernelIdeal.Frame
import proofs.«148777_j45337674776760_2_alg».proof.Proof.Gen.KernelIdeal.Skeleton
import Idealize.ShloMosaic.Lib.WritesUnit
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body restarts the running row minimum: the point's third coordinate is zero. -/
abbrev cond0_0 (i : grid0.Coords) : Prop := (Scalar.cmpi .ne (Scalar.extui (Scalar.cmpi .eq (BitVec.ofNat 32 (i 2).val) 0#32)) 0#32) = 1#1
/-- Over the 128 points in row-major order: those divisible by 8. -/
theorem hcond0_0 : ∀ t : Fin cfg0.N, cond0_0 (grid0.coords t) ↔ t.val % 8 = 0 :=
  (by decide +kernel : ∀ t : Fin grid0.N, cond0_0 (grid0.coords t) ↔ t.val % 8 = 0)

/-- The body restarts the column minima: the second and third coordinates are zero. -/
abbrev cond0_1 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- Those divisible by 64. -/
theorem hcond0_1 : ∀ t : Fin cfg0.N, cond0_1 (grid0.coords t) ↔ t.val % 64 = 0 :=
  (by decide +kernel : ∀ t : Fin grid0.N, cond0_1 (grid0.coords t) ↔ t.val % 64 = 0)

/-- The body copies the row minima out: the third coordinate is 7. -/
abbrev cond0_2 (i : grid0.Coords) : Prop := k0_cond3 i = 1#1
/-- Those that are 7 modulo 8. -/
theorem hcond0_2 : ∀ t : Fin cfg0.N, cond0_2 (grid0.coords t) ↔ t.val % 8 = 7 :=
  (by decide +kernel : ∀ t : Fin grid0.N, cond0_2 (grid0.coords t) ↔ t.val % 8 = 7)

/-- The running row minimum after a point: the minimum of what it was and the tile's minimum over the second cloud's 512 points. -/
def accStep (x0 x1 : Vec F S4x3x512 .f32) (prev : Vec F S4x512 .f32) : Vec F S4x512 .f32 :=
  k0_pay2 (k0_pay9 x0 x1) (k0_pay10 x0) (k0_pay11 x1) prev

/-- The rectangle of the column-minimum block that the point's tile of the second cloud addresses. -/
abbrev colRect (i : grid0.Coords) : Rect S4x1x4096 := Rect.unit (s := S4x1x4096) (k0_off1 i) S4x1x512.size (k0_off1_inb i)

/-- The column-minimum block after a point: inside the point's rectangle the minimum of what was there and the tile's
    minimum over the first cloud's 512 points, outside it what was there. -/
def o2Step (i : grid0.Coords) (x0 x1 : Vec F S4x3x512 .f32) (prev : Vec F S4x1x4096 .f32) : Vec F S4x1x4096 .f32 :=
  fun y => if h : ∀ a, k0_off1 i a ≤ (y a).val ∧ (y a).val < k0_off1 i a + S4x1x512.size a then
      k0_pay3 (k0_pay9 x0 x1) (k0_pay10 x0) (k0_pay11 x1) (View.ld prev (colRect i))
        (Rect.unitLocal (s := S4x1x4096) (off := k0_off1 i) (size := S4x1x512.size) y h)
    else prev y

/-- Each window's current staging buffer at a point, as the pipeline passes it to the body, and that it is a whole buffer. -/
abbrev ms0_0 (t : Fin cfg0.N) : Memref sig .tc .vmem S4x3x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x3x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x1x4096 .f32 := win0_3.stage (cfg0.slots t 3)
abbrev hs0_3 (t : Fin cfg0.N) : (ms0_3 t).IsWhole := hstage0_3 ((cfg0.slots t 3).cast nbuf0_3)
/-- The scratch buffer that carries the running row minimum between points. -/
abbrev scM0_0 : Memref sig .tc .vmem S4x512 .f32 := Memref.whole cc0_scratch0

/-- What the pipeline lends the body besides the windows: the scratch buffer at some contents and the generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The two input windows are live at every point. -/
theorem liveAt0_0 : ∀ t : Fin cfg0.N, cfg0.idle 0 (grid0.coords t) = false := by decide +kernel
theorem liveAt0_1 : ∀ t : Fin cfg0.N, cfg0.idle 1 (grid0.coords t) = false := by decide +kernel
/-- The column-minimum window is live at every point. -/
theorem liveAt0_3 : ∀ t : Fin cfg0.N, cfg0.idle 3 (grid0.coords t) = false := by decide +kernel
/-- The row-minimum window is idle exactly where the third coordinate is not 7. -/
theorem idleAt0_2 : ∀ t : Fin cfg0.N, cfg0.idle 2 (grid0.coords t) = !decide (t.val % 8 = 7) := by decide +kernel

end Cert.KernelIdeal.Gen

end
-- ==== Proof.KernelIdealRunA.lean ====
/-
  The kernel body run at a point that restarts both running minima (n = m = 0): from the two input blocks, the row-minimum output buffer, the column-minimum block
  and the scratch at given contents, it ends with the inputs as they were, the row-minimum buffer as it was, the column-minimum
  block advanced by `o2Step` and the scratch by `accStep` from plus infinity.
-/
import proofs.«148777_j45337674776760_2_alg».proof.Proof.KernelIdealSteps

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz2 : (![0, 0] : Fin 2 → ℕ) = fun _ => 0 := by funext a; fin_cases a <;> rfl
private theorem hz3 : (![0, 0, 0] : Fin 3 → ℕ) = fun _ => 0 := by funext a; fin_cases a <;> rfl

set_option maxHeartbeats 2000000 in
theorem kernelRun0_A (c : Dev nD) (i : grid0.Coords) (arg3 : Memref sig .tc .vmem S4x3x512 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x1x4096 .f32) (harg6 : arg6.IsWhole) (arg7 : Memref sig .tc .vmem S4x512 .f32) (harg7 : arg7.IsWhole) (hc0 : cond0_0 i) (hc1 : cond0_1 i) (hc2 : ¬cond0_2 i)
    (x0 : Vec F S4x3x512 .f32) (x1 : Vec F S4x3x512 .f32) (y2 : Vec F S4x1x512 .f32) (y3 : Vec F S4x1x4096 .f32) (xs0 : Vec F S4x512 .f32)
    (E : Set ℕ) (K : PUnit → sProp 𝕄) :
    iprop(owns (c : Thread nD τ) arg3 fullShare x0 ∗ owns (c : Thread nD τ) arg4 fullShare x1 ∗ owns (c : Thread nD τ) arg5 fullShare y2 ∗ owns (c : Thread nD τ) arg6 fullShare y3 ∗ owns (c : Thread nD τ) arg7 fullShare xs0
        ∗ (iprop(owns (c : Thread nD τ) arg3 fullShare x0 ∗ owns (c : Thread nD τ) arg4 fullShare x1 ∗ owns (c : Thread nD τ) arg5 fullShare y2 ∗ owns (c : Thread nD τ) arg6 fullShare (o2Step i x0 x1 (k0_pay6 (F := F))) ∗ owns (c : Thread nD τ) arg7 fullShare (accStep x0 x1 (k0_pay5 (F := F)))) -∗ K ⟨⟩))
      ⊢ wp frame (wpE (defs₀ (F := F)) Variants.none c none) E (cc0__fused_chamfer_kernel i arg3 harg3 arg4 harg4 arg5 harg5 arg6 harg6 arg7 harg7) K := by
  simp only [cc0__fused_chamfer_kernel_eq_skeleton]; unfold cc0__fused_chamfer_kernel_skel
  simp only [k0_part1_eq_skeleton]
  unfold owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg3.eq_unread hf0; obtain rfl := harg4.eq_unread hf1; obtain rfl := harg5.eq_unread hf2; obtain rfl := harg6.eq_unread hf3; obtain rfl := harg7.eq_unread hfs0
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; swap; · iexact H2
    ipureintro
    exact harg5.read_unread _
  isplitl [H3]
  · iexists _; isplitr; swap; · iexact H3
    ipureintro
    funext y
    unfold o2Step
    sl_unfold_run_names
    rw [View.read_writes_cons_unit _ _ _ _ _ y rfl]
    have e6 : View.read (Elt F) arg6.view (arg6.view.writes (Elt F) arg6.view.junk [(⟨Rect.unit ![0, 0, 0] S4x1x4096.size inb_S4x1x4096_S4x1x4096_0_0_0, k0_pay6 (F := F)⟩ : View.Piece (Elt F) S4x1x4096 .f32)]) = k0_pay6 (F := F) := by
      rw [View.read_writes_eq_canon _ _ _ (fun y => ⟨_, List.mem_cons_self, View.mem_set_unit_zero hz3 inb_S4x1x4096_S4x1x4096_0_0_0 y⟩), View.canon_unit_zero hz3]
    simp only [View.readAt_eq_ld, e6, harg3.read_unread, harg4.read_unread, View.ld_unit_zero (S := S4x3x512) hz3]
    try rfl
  · iexists _; isplitr; swap; · iexact HS0
    ipureintro
    unfold accStep
    sl_unfold_run_names
    rw [View.read_writes_eq_canon _ _ _ (fun y => ⟨_, List.mem_cons_self, View.mem_set_unit_zero hz2 inb_S4x512_S4x512_0_0 y⟩), View.canon_cons_unit_zero hz2]
    simp only [View.readAt_eq_ld, harg3.read_unread, harg4.read_unread, harg6.read_unread, harg7.read_unread, View.ld_unit_zero (S := S4x512) hz2, View.ld_unit_zero (S := S4x3x512) hz3, View.readCov_unit_zero (S := S4x512) arg7.view hz2]
    try rfl

end Cert.KernelIdeal.Gen

end
-- ==== Proof.KernelIdealRunB.lean ====
/-
  The kernel body run at a point in the middle of a row of tiles (0 < m < 7): from the two input blocks, the row-minimum output buffer, the column-minimum block
  and the scratch at given contents, it ends with the inputs as they were, the row-minimum buffer as it was, the column-minimum
  block advanced by `o2Step` and the scratch by `accStep`.
-/
import proofs.«148777_j45337674776760_2_alg».proof.Proof.KernelIdealRunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz2 : (![0, 0] : Fin 2 → ℕ) = fun _ => 0 := by funext a; fin_cases a <;> rfl
private theorem hz3 : (![0, 0, 0] : Fin 3 → ℕ) = fun _ => 0 := by funext a; fin_cases a <;> rfl

set_option maxHeartbeats 2000000 in
theorem kernelRun0_B (c : Dev nD) (i : grid0.Coords) (arg3 : Memref sig .tc .vmem S4x3x512 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x1x4096 .f32) (harg6 : arg6.IsWhole) (arg7 : Memref sig .tc .vmem S4x512 .f32) (harg7 : arg7.IsWhole) (hc0 : ¬cond0_0 i) (hc1 : ¬cond0_1 i) (hc2 : ¬cond0_2 i)
    (x0 : Vec F S4x3x512 .f32) (x1 : Vec F S4x3x512 .f32) (y2 : Vec F S4x1x512 .f32) (y3 : Vec F S4x1x4096 .f32) (xs0 : Vec F S4x512 .f32)
    (E : Set ℕ) (K : PUnit → sProp 𝕄) :
    iprop(owns (c : Thread nD τ) arg3 fullShare x0 ∗ owns (c : Thread nD τ) arg4 fullShare x1 ∗ owns (c : Thread nD τ) arg5 fullShare y2 ∗ owns (c : Thread nD τ) arg6 fullShare y3 ∗ owns (c : Thread nD τ) arg7 fullShare xs0
        ∗ (iprop(owns (c : Thread nD τ) arg3 fullShare x0 ∗ owns (c : Thread nD τ) arg4 fullShare x1 ∗ owns (c : Thread nD τ) arg5 fullShare y2 ∗ owns (c : Thread nD τ) arg6 fullShare (o2Step i x0 x1 y3) ∗ owns (c : Thread nD τ) arg7 fullShare (accStep x0 x1 xs0)) -∗ K ⟨⟩))
      ⊢ wp frame (wpE (defs₀ (F := F)) Variants.none c none) E (cc0__fused_chamfer_kernel i arg3 harg3 arg4 harg4 arg5 harg5 arg6 harg6 arg7 harg7) K := by
  simp only [cc0__fused_chamfer_kernel_eq_skeleton]; unfold cc0__fused_chamfer_kernel_skel
  simp only [k0_part1_eq_skeleton]
  unfold owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg3.eq_unread hf0; obtain rfl := harg4.eq_unread hf1; obtain rfl := harg5.eq_unread hf2; obtain rfl := harg6.eq_unread hf3; obtain rfl := harg7.eq_unread hfs0
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; swap; · iexact H2
    ipureintro
    exact harg5.read_unread _
  isplitl [H3]
  · iexists _; isplitr; swap; · iexact H3
    ipureintro
    funext y
    unfold o2Step
    sl_unfold_run_names
    rw [View.read_writes_cons_unit _ _ _ _ _ y rfl]
    simp only [View.writes_nil, View.readAt_eq_ld, harg3.read_unread, harg4.read_unread, harg6.read_unread, View.ld_unit_zero (S := S4x3x512) hz3]
    try rfl
  · iexists _; isplitr; swap; · iexact HS0
    ipureintro
    unfold accStep
    sl_unfold_run_names
    rw [View.read_writes_eq_canon _ _ _ (fun y => ⟨_, List.mem_cons_self, View.mem_set_unit_zero hz2 inb_S4x512_S4x512_0_0 y⟩), View.canon_cons_unit_zero hz2]
    simp only [View.readAt_eq_ld, harg3.read_unread, harg4.read_unread, harg6.read_unread, harg7.read_unread, View.ld_unit_zero (S := S4x512) hz2, View.ld_unit_zero (S := S4x3x512) hz3, View.readCov_unit_zero (S := S4x512) arg7.view hz2]
    try rfl

end Cert.KernelIdeal.Gen

end
-- ==== Proof.KernelIdealRunC.lean ====
/-
  The kernel body run at the last point of a row of tiles (m = 7), which copies the row minima out: from the two input blocks, the row-minimum output buffer, the column-minimum block
  and the scratch at given contents, it ends with the inputs as they were, the row-minimum buffer at the new running row minimum, the column-minimum
  block advanced by `o2Step` and the scratch by `accStep`.
-/
import proofs.«148777_j45337674776760_2_alg».proof.Proof.KernelIdealRunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz2 : (![0, 0] : Fin 2 → ℕ) = fun _ => 0 := by funext a; fin_cases a <;> rfl
private theorem hz3 : (![0, 0, 0] : Fin 3 → ℕ) = fun _ => 0 := by funext a; fin_cases a <;> rfl

set_option maxHeartbeats 2000000 in
theorem kernelRun0_C (c : Dev nD) (i : grid0.Coords) (arg3 : Memref sig .tc .vmem S4x3x512 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x1x4096 .f32) (harg6 : arg6.IsWhole) (arg7 : Memref sig .tc .vmem S4x512 .f32) (harg7 : arg7.IsWhole) (hc0 : ¬cond0_0 i) (hc1 : ¬cond0_1 i) (hc2 : cond0_2 i)
    (x0 : Vec F S4x3x512 .f32) (x1 : Vec F S4x3x512 .f32) (y2 : Vec F S4x1x512 .f32) (y3 : Vec F S4x1x4096 .f32) (xs0 : Vec F S4x512 .f32)
    (E : Set ℕ) (K : PUnit → sProp 𝕄) :
    iprop(owns (c : Thread nD τ) arg3 fullShare x0 ∗ owns (c : Thread nD τ) arg4 fullShare x1 ∗ owns (c : Thread nD τ) arg5 fullShare y2 ∗ owns (c : Thread nD τ) arg6 fullShare y3 ∗ owns (c : Thread nD τ) arg7 fullShare xs0
        ∗ (iprop(owns (c : Thread nD τ) arg3 fullShare x0 ∗ owns (c : Thread nD τ) arg4 fullShare x1 ∗ owns (c : Thread nD τ) arg5 fullShare (k0_pay4 (accStep x0 x1 xs0)) ∗ owns (c : Thread nD τ) arg6 fullShare (o2Step i x0 x1 y3) ∗ owns (c : Thread nD τ) arg7 fullShare (accStep x0 x1 xs0)) -∗ K ⟨⟩))
      ⊢ wp frame (wpE (defs₀ (F := F)) Variants.none c none) E (cc0__fused_chamfer_kernel i arg3 harg3 arg4 harg4 arg5 harg5 arg6 harg6 arg7 harg7) K := by
  simp only [cc0__fused_chamfer_kernel_eq_skeleton]; unfold cc0__fused_chamfer_kernel_skel
  simp only [k0_part1_eq_skeleton]
  unfold owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg3.eq_unread hf0; obtain rfl := harg4.eq_unread hf1; obtain rfl := harg5.eq_unread hf2; obtain rfl := harg6.eq_unread hf3; obtain rfl := harg7.eq_unread hfs0
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; swap; · iexact H2
    ipureintro
    unfold accStep
    sl_unfold_run_names
    rw [View.read_writes_eq_canon _ _ _ (fun y => ⟨_, List.mem_cons_self, View.mem_set_unit_zero hz3 inb_S4x1x512_S4x1x512_0_0_0 y⟩), View.canon_cons_unit_zero hz3]
    simp only [View.readAt_eq_ld, harg3.read_unread, harg4.read_unread, harg6.read_unread, harg7.read_unread, View.ld_unit_zero (S := S4x512) hz2, View.ld_unit_zero (S := S4x3x512) hz3, View.readCov_unit_zero (S := S4x512) arg7.view hz2]
    try rfl
  isplitl [H3]
  · iexists _; isplitr; swap; · iexact H3
    ipureintro
    funext y
    unfold o2Step
    sl_unfold_run_names
    rw [View.read_writes_cons_unit _ _ _ _ _ y rfl]
    simp only [View.writes_nil, View.readAt_eq_ld, harg3.read_unread, harg4.read_unread, harg6.read_unread, View.ld_unit_zero (S := S4x3x512) hz3]
    try rfl
  · iexists _; isplitr; swap; · iexact HS0
    ipureintro
    unfold accStep
    sl_unfold_run_names
    rw [View.read_writes_eq_canon _ _ _ (fun y => ⟨_, List.mem_cons_self, View.mem_set_unit_zero hz2 inb_S4x512_S4x512_0_0 y⟩), View.canon_cons_unit_zero hz2]
    simp only [View.readAt_eq_ld, harg3.read_unread, harg4.read_unread, harg6.read_unread, harg7.read_unread, View.ld_unit_zero (S := S4x512) hz2, View.ld_unit_zero (S := S4x3x512) hz3, View.readCov_unit_zero (S := S4x512) arg7.view hz2]
    try rfl

end Cert.KernelIdeal.Gen

end
-- ==== Proof.KernelIdealRunD.lean ====
/-
  The kernel body run at the first point of a later row of tiles (m = 0, n > 0), which restarts the row minima only: from the two input blocks, the row-minimum output buffer, the column-minimum block
  and the scratch at given contents, it ends with the inputs as they were, the row-minimum buffer as it was, the column-minimum
  block advanced by `o2Step` and the scratch by `accStep` from plus infinity.
-/
import proofs.«148777_j45337674776760_2_alg».proof.Proof.KernelIdealRunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz2 : (![0, 0] : Fin 2 → ℕ) = fun _ => 0 := by funext a; fin_cases a <;> rfl
private theorem hz3 : (![0, 0, 0] : Fin 3 → ℕ) = fun _ => 0 := by funext a; fin_cases a <;> rfl

set_option maxHeartbeats 2000000 in
theorem kernelRun0_D (c : Dev nD) (i : grid0.Coords) (arg3 : Memref sig .tc .vmem S4x3x512 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x1x4096 .f32) (harg6 : arg6.IsWhole) (arg7 : Memref sig .tc .vmem S4x512 .f32) (harg7 : arg7.IsWhole) (hc0 : cond0_0 i) (hc1 : ¬cond0_1 i) (hc2 : ¬cond0_2 i)
    (x0 : Vec F S4x3x512 .f32) (x1 : Vec F S4x3x512 .f32) (y2 : Vec F S4x1x512 .f32) (y3 : Vec F S4x1x4096 .f32) (xs0 : Vec F S4x512 .f32)
    (E : Set ℕ) (K : PUnit → sProp 𝕄) :
    iprop(owns (c : Thread nD τ) arg3 fullShare x0 ∗ owns (c : Thread nD τ) arg4 fullShare x1 ∗ owns (c : Thread nD τ) arg5 fullShare y2 ∗ owns (c : Thread nD τ) arg6 fullShare y3 ∗ owns (c : Thread nD τ) arg7 fullShare xs0
        ∗ (iprop(owns (c : Thread nD τ) arg3 fullShare x0 ∗ owns (c : Thread nD τ) arg4 fullShare x1 ∗ owns (c : Thread nD τ) arg5 fullShare y2 ∗ owns (c : Thread nD τ) arg6 fullShare (o2Step i x0 x1 y3) ∗ owns (c : Thread nD τ) arg7 fullShare (accStep x0 x1 (k0_pay5 (F := F)))) -∗ K ⟨⟩))
      ⊢ wp frame (wpE (defs₀ (F := F)) Variants.none c none) E (cc0__fused_chamfer_kernel i arg3 harg3 arg4 harg4 arg5 harg5 arg6 harg6 arg7 harg7) K := by
  simp only [cc0__fused_chamfer_kernel_eq_skeleton]; unfold cc0__fused_chamfer_kernel_skel
  simp only [k0_part1_eq_skeleton]
  unfold owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg3.eq_unread hf0; obtain rfl := harg4.eq_unread hf1; obtain rfl := harg5.eq_unread hf2; obtain rfl := harg6.eq_unread hf3; obtain rfl := harg7.eq_unread hfs0
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; swap; · iexact H2
    ipureintro
    exact harg5.read_unread _
  isplitl [H3]
  · iexists _; isplitr; swap; · iexact H3
    ipureintro
    funext y
    unfold o2Step
    sl_unfold_run_names
    rw [View.read_writes_cons_unit _ _ _ _ _ y rfl]
    simp only [View.writes_nil, View.readAt_eq_ld, harg3.read_unread, harg4.read_unread, harg6.read_unread, View.ld_unit_zero (S := S4x3x512) hz3]
    try rfl
  · iexists _; isplitr; swap; · iexact HS0
    ipureintro
    unfold accStep
    sl_unfold_run_names
    rw [View.read_writes_eq_canon _ _ _ (fun y => ⟨_, List.mem_cons_self, View.mem_set_unit_zero hz2 inb_S4x512_S4x512_0_0 y⟩), View.canon_cons_unit_zero hz2]
    simp only [View.readAt_eq_ld, harg3.read_unread, harg4.read_unread, harg6.read_unread, harg7.read_unread, View.ld_unit_zero (S := S4x512) hz2, View.ld_unit_zero (S := S4x3x512) hz3, View.readCov_unit_zero (S := S4x512) arg7.view hz2]
    try rfl

end Cert.KernelIdeal.Gen

end
-- ==== Proof.KernelIdealData.lean ====
/-
  The proof data of the kernel's one pipeline and its run.

  After the body at point t (in row-major order over the 2 x 8 x 8 grid) the scratch holds the running row minimum
  `accAt t`, restarted at every point divisible by 8; the resident column-minimum block holds `o2At t`, restarted at
  every point divisible by 64; and at the points that are 7 modulo 8 the row-minimum buffer holds the running row
  minimum, copied out. Each is the step of the point applied to what the point before left. With these named,
  the body's run at each of the four kinds of point is the obligation the pipeline asks at every point, and the
  pipeline's launch theorem gives the whole run: every array ends as its write-backs left it.
-/
import proofs.«148777_j45337674776760_2_alg».proof.Proof.KernelIdealRunD

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The running row minimum after point `n`. -/
def accAt (c : Dev nD) : (n : ℕ) → n < cfg0.N → Vec F S4x512 .f32
  | 0, hn => accStep (iblk m c 0 ⟨0, hn⟩) (iblk m c 1 ⟨0, hn⟩) (k0_pay5 (F := F))
  | n + 1, hn =>
    if (n + 1) % 8 = 0 then accStep (iblk m c 0 ⟨n + 1, hn⟩) (iblk m c 1 ⟨n + 1, hn⟩) (k0_pay5 (F := F))
    else accStep (iblk m c 0 ⟨n + 1, hn⟩) (iblk m c 1 ⟨n + 1, hn⟩) (accAt c n (Nat.lt_of_succ_lt hn))

/-- The column-minimum block after point `n`. -/
def o2At (c : Dev nD) : (n : ℕ) → n < cfg0.N → Vec F S4x1x4096 .f32
  | 0, hn => o2Step (grid0.coords ⟨0, hn⟩) (iblk m c 0 ⟨0, hn⟩) (iblk m c 1 ⟨0, hn⟩) (k0_pay6 (F := F))
  | n + 1, hn =>
    if (n + 1) % 64 = 0 then o2Step (grid0.coords ⟨n + 1, hn⟩) (iblk m c 0 ⟨n + 1, hn⟩) (iblk m c 1 ⟨n + 1, hn⟩) (k0_pay6 (F := F))
    else o2Step (grid0.coords ⟨n + 1, hn⟩) (iblk m c 0 ⟨n + 1, hn⟩) (iblk m c 1 ⟨n + 1, hn⟩) (o2At c n (Nat.lt_of_succ_lt hn))

/-- At a point divisible by 8 the running row minimum restarts from plus infinity. -/
theorem accAt_reset (c : Dev nD) (t : Fin cfg0.N) (h0 : t.val % 8 = 0) :
    accAt m c t.val t.isLt = accStep (iblk m c 0 t) (iblk m c 1 t) (k0_pay5 (F := F)) := by
  obtain ⟨n, hn⟩ := t
  cases n with
  | zero => rfl
  | succ n => exact if_pos h0
/-- At any other point it continues from the point before. -/
theorem accAt_step (c : Dev nD) (t : Fin cfg0.N) (h0 : ¬t.val % 8 = 0) :
    accAt m c t.val t.isLt = accStep (iblk m c 0 t) (iblk m c 1 t) (accAt m c (t.val - 1) (Nat.lt_of_le_of_lt (Nat.sub_le _ _) t.isLt)) := by
  obtain ⟨n, hn⟩ := t
  cases n with
  | zero => exact absurd (Nat.zero_mod _) h0
  | succ n => exact if_neg h0
/-- At a point divisible by 64 the column minima restart from plus infinity. -/
theorem o2At_reset (c : Dev nD) (t : Fin cfg0.N) (h1 : t.val % 64 = 0) :
    o2At m c t.val t.isLt = o2Step (grid0.coords t) (iblk m c 0 t) (iblk m c 1 t) (k0_pay6 (F := F)) := by
  obtain ⟨n, hn⟩ := t
  cases n with
  | zero => rfl
  | succ n => exact if_pos h1
/-- At any other point they continue from the point before. -/
theorem o2At_step (c : Dev nD) (t : Fin cfg0.N) (h1 : ¬t.val % 64 = 0) :
    o2At m c t.val t.isLt = o2Step (grid0.coords t) (iblk m c 0 t) (iblk m c 1 t) (o2At m c (t.val - 1) (Nat.lt_of_le_of_lt (Nat.sub_le _ _) t.isLt)) := by
  obtain ⟨n, hn⟩ := t
  cases n with
  | zero => exact absurd (Nat.zero_mod _) h1
  | succ n => exact if_neg h1

/-- What the pipeline lends the body before point `n`: before the first point the scratch at anything; afterwards the
    scratch at the running row minimum the point before left; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) scM0_0 fullShare (accAt m c (n - 1) (by omega))) ∗ (∃ r, prngReg c r)) := by
  cases n with
  | zero => exact absurd rfl hz
  | succ n => rfl

/-- The proof data: the arrays as the region finds them; after the body at a point each input's buffer at its block,
    the row-minimum buffer at the running row minimum (read where it is copied out), the column-minimum block at `o2At`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay4 (accAt m c t.val t.isLt)
    | ⟨3, _⟩ => o2At m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = k0_pay4 (accAt m c t.val t.isLt) := by dsimp only [dats]
theorem after0_3 (c : Dev nD) (t : Fin cfg0.N) : (dats m 0 c).after 3 t = o2At m c t.val t.isLt := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The column-minimum block is written back after the points that are 63 modulo 64: at a point divisible by 64 its buffer is fresh. -/
theorem before0_3_reset (c : Dev nD) (t : Fin cfg0.N) (h1 : t.val % 64 = 0) (d) : (dats m 0 c).before 3 t d = d :=
  (dats m 0 c).before_out_reset 3 rfl t (by
    by_cases hz : t.val = 0
    · exact .inl hz
    · exact .inr ⟨hz, (flush0_3 _).mpr (by show (t.val - 1) % 64 = 63; omega)⟩) d
/-- At any other point it holds what the point before left. -/
theorem before0_3_kept (c : Dev nD) (t : Fin cfg0.N) (h1 : ¬t.val % 64 = 0) (d) :
    (dats m 0 c).before 3 t d = o2At m c (t.val - 1) (Nat.lt_of_le_of_lt (Nat.sub_le _ _) t.isLt) :=
  ((dats m 0 c).before_out_kept 3 rfl t (fun h => h1 (by rw [h])) (Bool.eq_false_iff.mpr fun h => by
      have := (flush0_3 _).mp h
      have h' : (t.val - 1) % 64 = 63 := this
      omega) (fun _ => rfl) (fun _ _ => rfl) d).trans (after0_3 m c _)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 6400000 in
/-- The body at any point: which of the four kinds of point it is decides which run applies; the scratch and the
    column-minimum block are handed over at what the point before left (or at anything where the body restarts them). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 8 = 0
  · by_cases h1 : t.val % 64 = 0
    · have h2 : ¬t.val % 8 = 7 := by omega
      rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 3 t = owns (c : Thread nD τ) (ms0_3 t) fullShare ((dats m 0 c).after 3 t) from by
      unfold Dat.leavesExact; rw [liveAt0_3 t], after0_3]
      rw [(dats m 0 c).leavesExact_idle 2 t (by rw [idleAt0_2 t, decide_eq_false h2]; rfl) (Bool.eq_false_iff.mpr fun h => h2 ((flush0_2 t).mp h))]
      simp only [before0_3_reset m c t h1]
      rw [accAt_reset m c t h0, o2At_reset m c t h1]
      by_cases hz : t.val = 0
      · rw [PhiS_castSucc m c t, PhiS_zero m c _ _ hz, PhiA0_eq]
        iintro ⟨⟨⟨%ds, HS0⟩, Hg⟩, Ho, ⟨%d0, H0⟩, ⟨%d1, H1⟩, ⟨%d2, H2⟩, ⟨%d3, H3⟩⟩
        iapply (kernelRun0_A c (grid0.coords t) _ _ _ _ _ _ _ _ _ _ ((hcond0_0 t).mpr h0) ((hcond0_1 t).mpr h1) (fun h => h2 ((hcond0_2 t).mp h)) (iblk m c 0 t) (iblk m c 1 t) _ _ ds Set.univ _)
        isplitl [H0]; · iexact H0
        isplitl [H1]; · iexact H1
        isplitl [H2]; · iexact H2
        isplitl [H3]; · iexact H3
        isplitl [HS0]; · iexact HS0
        iintro ⟨H0, H1, H2, H3, HS0⟩
        isplitl [HS0 Hg]
        · isplitl [HS0]; · iexact HS0
          iexact Hg
        isplitl [Ho]; · iexact Ho
        isplitl [H0]; · iexact H0
        isplitl [H1]; · iexact H1
        isplitl [H2]; · iexists _; iexact H2
        iexact H3
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply (kernelRun0_A c (grid0.coords t) _ _ _ _ _ _ _ _ _ _ ((hcond0_0 t).mpr h0) ((hcond0_1 t).mpr h1) (fun h => h2 ((hcond0_2 t).mp h)) (iblk m c 0 t) (iblk m c 1 t) _ _ _ Set.univ _)
        isplitl [H0]; · iexact H0
        isplitl [H1]; · iexact H1
        isplitl [H2]; · iexact H2
        isplitl [H3]; · iexact H3
        isplitl [HS0]; · iexact HS0
        iintro ⟨H0, H1, H2, H3, HS0⟩
        isplitl [HS0 Hg]
        · isplitl [HS0]; · iexact HS0
          iexact Hg
        isplitl [Ho]; · iexact Ho
        isplitl [H0]; · iexact H0
        isplitl [H1]; · iexact H1
        isplitl [H2]; · iexists _; iexact H2
        iexact H3
    · have h2 : ¬t.val % 8 = 7 := by omega
      rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 3 t = owns (c : Thread nD τ) (ms0_3 t) fullShare ((dats m 0 c).after 3 t) from by
      unfold Dat.leavesExact; rw [liveAt0_3 t], after0_3]
      rw [(dats m 0 c).leavesExact_idle 2 t (by rw [idleAt0_2 t, decide_eq_false h2]; rfl) (Bool.eq_false_iff.mpr fun h => h2 ((flush0_2 t).mp h))]
      simp only [before0_3_kept m c t h1]
      rw [accAt_reset m c t h0, o2At_step m c t h1]
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply (kernelRun0_D c (grid0.coords t) _ _ _ _ _ _ _ _ _ _ ((hcond0_0 t).mpr h0) (fun h => h1 ((hcond0_1 t).mp h)) (fun h => h2 ((hcond0_2 t).mp h)) (iblk m c 0 t) (iblk m c 1 t) _ _ _ Set.univ _)
        isplitl [H0]; · iexact H0
        isplitl [H1]; · iexact H1
        isplitl [H2]; · iexact H2
        isplitl [H3]; · iexact H3
        isplitl [HS0]; · iexact HS0
        iintro ⟨H0, H1, H2, H3, HS0⟩
        isplitl [HS0 Hg]
        · isplitl [HS0]; · iexact HS0
          iexact Hg
        isplitl [Ho]; · iexact Ho
        isplitl [H0]; · iexact H0
        isplitl [H1]; · iexact H1
        isplitl [H2]; · iexists _; iexact H2
        iexact H3
  · have h1 : ¬t.val % 64 = 0 := by omega
    by_cases h2 : t.val % 8 = 7
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 3 t = owns (c : Thread nD τ) (ms0_3 t) fullShare ((dats m 0 c).after 3 t) from by
      unfold Dat.leavesExact; rw [liveAt0_3 t], after0_3]
      rw [show (dats m 0 c).leavesExact 2 t = owns (c : Thread nD τ) (ms0_2 t) fullShare ((dats m 0 c).after 2 t) from by
      unfold Dat.leavesExact; rw [idleAt0_2 t, decide_eq_true h2]; rfl, after0_2]
      simp only [before0_3_kept m c t h1]
      rw [accAt_step m c t h0, o2At_step m c t h1]
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply (kernelRun0_C c (grid0.coords t) _ _ _ _ _ _ _ _ _ _ (fun h => h0 ((hcond0_0 t).mp h)) (fun h => h1 ((hcond0_1 t).mp h)) ((hcond0_2 t).mpr h2) (iblk m c 0 t) (iblk m c 1 t) _ _ _ Set.univ _)
        isplitl [H0]; · iexact H0
        isplitl [H1]; · iexact H1
        isplitl [H2]; · iexact H2
        isplitl [H3]; · iexact H3
        isplitl [HS0]; · iexact HS0
        iintro ⟨H0, H1, H2, H3, HS0⟩
        isplitl [HS0 Hg]
        · isplitl [HS0]; · iexact HS0
          iexact Hg
        isplitl [Ho]; · iexact Ho
        isplitl [H0]; · iexact H0
        isplitl [H1]; · iexact H1
        isplitl [H2]; · iexact H2
        iexact H3
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 3 t = owns (c : Thread nD τ) (ms0_3 t) fullShare ((dats m 0 c).after 3 t) from by
      unfold Dat.leavesExact; rw [liveAt0_3 t], after0_3]
      rw [(dats m 0 c).leavesExact_idle 2 t (by rw [idleAt0_2 t, decide_eq_false h2]; rfl) (Bool.eq_false_iff.mpr fun h => h2 ((flush0_2 t).mp h))]
      simp only [before0_3_kept m c t h1]
      rw [accAt_step m c t h0, o2At_step m c t h1]
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply (kernelRun0_B c (grid0.coords t) _ _ _ _ _ _ _ _ _ _ (fun h => h0 ((hcond0_0 t).mp h)) (fun h => h1 ((hcond0_1 t).mp h)) (fun h => h2 ((hcond0_2 t).mp h)) (iblk m c 0 t) (iblk m c 1 t) _ _ _ Set.univ _)
        isplitl [H0]; · iexact H0
        isplitl [H1]; · iexact H1
        isplitl [H2]; · iexact H2
        isplitl [H3]; · iexact H3
        isplitl [HS0]; · iexact HS0
        iintro ⟨H0, H1, H2, H3, HS0⟩
        isplitl [HS0 Hg]
        · isplitl [HS0]; · iexact HS0
          iexact Hg
        isplitl [Ho]; · iexact Ho
        isplitl [H0]; · iexact H0
        isplitl [H1]; · iexact H1
        isplitl [H2]; · iexists _; iexact H2
        iexact H3

/-- The pipeline's obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back, the scratch's contents forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA0_eq]
  iintro ⟨HS0, Hg⟩
  isplitl [HS0]
  · iexists _; iexact HS0
  iexact Hg

set_option backward.isDefEq.respectTransparency.types false in
/-- The whole run: every weakly fair execution of the program terminates, each array of the pipeline ends as its
    write-backs left it, and every other buffer as the host lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (fun c w => A_eq m c w) (run_main m ρ)

end Cert.KernelIdeal.Gen

end
-- ==== Proof.KernelIdealTile.lean ====
/-
  The body's arithmetic at one grid point, read at an index, over the extended reals.

  The two input blocks hold, for 4 batches, the 3 coordinates of 512 points each: block entry (b, k, p) is coordinate k
  of point p in batch b. The body forms the 4 x 512 x 512 tile whose entry (b, p, q) is the clamped squared distance tileD
  from point p of the first block to point q of the second: the three squared coordinate differences added to zero in
  order, clamped below at zero (tile_apply). Its minimum along q, folded into the running row minimum, is the row step
  (accStep_apply); its minimum along p, folded into the 512 columns of the column block that start at 512 times the
  point's third coordinate, is the column step, which leaves every other column as it was (o2Step_inside,
  o2Step_outside, o2Step_apply). A minimum-reduction from plus infinity over a finite range is written as an infimum.
  The remaining payloads are a change of view of the row minima and the two restart values, plus infinity everywhere.
-/
import proofs.«148777_j45337674776760_2_alg».proof.Proof.KernelIdealSteps
import proofs.«148777_j45337674776760_2_alg».proof.Proof.ChamferSpec
import Idealize.ShloMosaic.Lib.ValueIdx
import Idealize.ShloMosaic.Lib.Pipeline.Value
import Idealize.ShloMosaic.Lib.WritesUnit
import Idealize.ShloMosaic.PureOps.Ideal.Laws

noncomputable section

namespace Cert.KernelIdeal.Tile

open Idealize.ShloMosaic Idealize.ShloMosaic.ValueIdx Cert.KernelIdeal Cert.KernelIdeal.Gen

/-- The clamped squared distance from point p of the first block to point q of the second, in batch b: the three squared
    coordinate differences added to zero in order, clamped below at zero. -/
def tileD (x0 x1 : Vec Ideal S4x3x512 .f32) (b : Fin 4) (p q : Fin 512) : EReal :=
  max ((((0 : EReal) + (x0 (ix3 b 0 p) - x1 (ix3 b 0 q)) * (x0 (ix3 b 0 p) - x1 (ix3 b 0 q)))
      + (x0 (ix3 b 1 p) - x1 (ix3 b 1 q)) * (x0 (ix3 b 1 p) - x1 (ix3 b 1 q)))
    + (x0 (ix3 b 2 p) - x1 (ix3 b 2 q)) * (x0 (ix3 b 2 p) - x1 (ix3 b 2 q))) 0

/-! ## Layout operations at explicit coordinates -/

section Layout
variable {α : Type}

/-- Coordinate k of a block, taken as a 4 x 1 x 512 slice and viewed 4 x 512, reads the block at (b, k, p). -/
theorem coord_apply (x : S4x3x512.Idx → α) (k : Fin 3) (off : Fin 3 → Nat) (h0 : off 0 = 0) (h1 : off 1 = k.val) (h2 : off 2 = 0)
    (hs : S4x3x512.Slices off S4x1x512) (hc : S4x1x512.ShapeCasts S4x512) (b : Fin 4) (p : Fin 512) :
    shapeCast S4x512 (extractStridedSlice S4x1x512 off x hs) hc (ix2 b p) = x (ix3 b k p) := by
  refine (shapeCast_apply _ hc (ix2 b p) (ix3 b (0 : Fin 1) p) ?_).trans ?_
  · rw [Shape.rowMajor_val_three, Shape.rowMajor_val_two]
    show (b.val * 1 + 0) * 512 + p.val = b.val * 512 + p.val
    omega
  · exact extractStridedSlice_apply off x hs _ (ix3 b k p) (fun a => match a with
      | ⟨0, _⟩ => by show b.val = off 0 + b.val; omega
      | ⟨1, _⟩ => by show k.val = off 1 + 0; omega
      | ⟨2, _⟩ => by show p.val = off 2 + p.val; omega)

/-- A 4 x 512 table viewed 4 x 512 x 1 and broadcast along the last axis reads the table at (b, p). -/
theorem col_apply (v : S4x512.Idx → α) (hc : S4x512.ShapeCasts S4x512x1) (hb : S4x512x1.Broadcasts S4x512x512)
    (b : Fin 4) (p q : Fin 512) :
    broadcastTo S4x512x512 (shapeCast S4x512x1 v hc) hb (ix3 b p q) = v (ix2 b p) := by
  refine (broadcastTo_apply _ hb (ix3 b p q) (ix3 b p (0 : Fin 1)) (fun a => match a with
      | ⟨0, _⟩ => rfl
      | ⟨1, _⟩ => rfl
      | ⟨2, _⟩ => rfl)).trans ?_
  refine shapeCast_apply v hc _ (ix2 b p) ?_
  rw [Shape.rowMajor_val_three, Shape.rowMajor_val_two]
  show b.val * 512 + p.val = (b.val * 512 + p.val) * 1 + 0
  omega

/-- A 4 x 512 table viewed 4 x 1 x 512 and broadcast along the middle axis reads the table at (b, q). -/
theorem row_apply (v : S4x512.Idx → α) (hc : S4x512.ShapeCasts S4x1x512) (hb : S4x1x512.Broadcasts S4x512x512)
    (b : Fin 4) (p q : Fin 512) :
    broadcastTo S4x512x512 (shapeCast S4x1x512 v hc) hb (ix3 b p q) = v (ix2 b q) := by
  refine (broadcastTo_apply _ hb (ix3 b p q) (ix3 b (0 : Fin 1) q) (fun a => match a with
      | ⟨0, _⟩ => rfl
      | ⟨1, _⟩ => rfl
      | ⟨2, _⟩ => rfl)).trans ?_
  refine shapeCast_apply v hc _ (ix2 b q) ?_
  rw [Shape.rowMajor_val_three, Shape.rowMajor_val_two]
  show b.val * 512 + q.val = (b.val * 1 + 0) * 512 + q.val
  omega

/-- A 4 x 512 table viewed 4 x 1 x 512 reads the table at (b, p). -/
theorem addMid_apply (v : S4x512.Idx → α) (hc : S4x512.ShapeCasts S4x1x512) (b : Fin 4) (p : Fin 512) :
    shapeCast S4x1x512 v hc (ix3 b (0 : Fin 1) p) = v (ix2 b p) := by
  refine shapeCast_apply v hc _ (ix2 b p) ?_
  rw [Shape.rowMajor_val_three, Shape.rowMajor_val_two]
  show b.val * 512 + p.val = (b.val * 1 + 0) * 512 + p.val
  omega

end Layout

/-! ## The tile -/

/-- The body's tile at (b, p, q) is the clamped squared distance from point p of the first block to point q of the second. -/
theorem tile_apply (x0 x1 : Vec Ideal S4x3x512 .f32) (b : Fin 4) (p q : Fin 512) :
    k0_pay1 (F := Ideal) (k0_pay9 x0 x1) (k0_pay10 x0) (k0_pay11 x1) (ix3 b p q) = tileD x0 x1 b p q := by
  unfold k0_pay1 k0_pay9 k0_pay10 k0_pay11 k0_pay7 k0_pay8
  simp only [subf_apply, mulf_apply, addf_apply, maximumf_apply, broadcast_apply, shapeCast_self, col_apply, row_apply,
    coord_apply _ (0 : Fin 3) ![0, 0, 0] rfl rfl rfl, coord_apply _ (1 : Fin 3) ![0, 1, 0] rfl rfl rfl,
    coord_apply _ (2 : Fin 3) ![0, 2, 0] rfl rfl rfl, Ideal.ofBits_def, Ideal.ofBits_zero_f32]
  rfl

/-! ## The two minima of the tile -/

/-- From plus infinity, a fold of the minimum over a whole finite range is the infimum over the range. -/
theorem fold_minimumf_inf {K : Nat} (f : Fin K → EReal) :
    (Finset.univ : Finset (Fin K)).fold (FloatOps.minimumf (F := Ideal) (φ := .f32))
      (FloatOps.ofBits (F := Ideal) .f32 0x7F800000#32) f = ⨅ k : Fin K, f k := by
  rw [Cert.Chamfer.ofBits_inf]
  exact Cert.Chamfer.fold_min_eq_iInf f

/-- A minimum-reduction over one axis from plus infinity is, at each reduced index, the infimum over that axis's coordinates. -/
theorem minReduce_single {s t : Shape} {a : Fin s.rank} (src : FVec Ideal s .f32) (h : s.Reduces [a] t)
    (hφ : FKind.Formats .f32) (hacc : (0x7F800000#32 : BitVec 32) = FKind.minimumf.neutral .f32 hφ) (j : t.Idx) :
    multiReduction .minimumf [a] t src 0x7F800000#32 h hφ hacc j = ⨅ k : Fin (s.size a), src (h.lift j k) := by
  rw [multiReduction_minimumf_eq_fold]
  exact (h.fold_filter_drop_single _ _ src j).trans (fold_minimumf_inf _)

/-- The index (b, p) with coordinate k inserted on the last axis is (b, p, k). -/
theorem lift_last (h : S4x512x512.Reduces [2] S4x512) (b : Fin 4) (p : Fin 512) (k : Fin (S4x512x512.size 2)) :
    h.lift (ix2 b p) k = ix3 b p (⟨k.val, k.isLt⟩ : Fin 512) := by
  funext c; apply Fin.ext
  fin_cases c <;> rfl

/-- The index (b, q) with coordinate k inserted on the middle axis is (b, k, q). -/
theorem lift_mid (h : S4x512x512.Reduces [1] S4x512) (b : Fin 4) (q : Fin 512) (k : Fin (S4x512x512.size 1)) :
    h.lift (ix2 b q) k = ix3 b (⟨k.val, k.isLt⟩ : Fin 512) q := by
  funext c; apply Fin.ext
  fin_cases c <;> rfl

/-- The tile's minimum over the second block's points, at (b, p). -/
theorem rowMin_apply (x0 x1 : Vec Ideal S4x3x512 .f32) (b : Fin 4) (p : Fin 512) :
    multiReduction .minimumf [2] S4x512 (k0_pay1 (F := Ideal) (k0_pay9 x0 x1) (k0_pay10 x0) (k0_pay11 x1)) 0x7F800000#32
        reduces_S4x512x512_S4x512 (.inl rfl) rfl (ix2 b p)
      = ⨅ q : Fin 512, tileD x0 x1 b p q :=
  (minReduce_single _ reduces_S4x512x512_S4x512 (.inl rfl) rfl (ix2 b p)).trans (iInf_congr fun q =>
    (congrArg _ (lift_last reduces_S4x512x512_S4x512 b p q)).trans (tile_apply x0 x1 b p _))

/-- The tile's minimum over the first block's points, at (b, q). -/
theorem colMin_apply (x0 x1 : Vec Ideal S4x3x512 .f32) (b : Fin 4) (q : Fin 512) :
    multiReduction .minimumf [1] S4x512 (k0_pay1 (F := Ideal) (k0_pay9 x0 x1) (k0_pay10 x0) (k0_pay11 x1)) 0x7F800000#32
        reduces_S4x512x512_S4x512_2 (.inl rfl) rfl (ix2 b q)
      = ⨅ p : Fin 512, tileD x0 x1 b p q :=
  (minReduce_single _ reduces_S4x512x512_S4x512_2 (.inl rfl) rfl (ix2 b q)).trans (iInf_congr fun p =>
    (congrArg _ (lift_mid reduces_S4x512x512_S4x512_2 b q p)).trans (tile_apply x0 x1 b _ q))

/-- The running row minimum after a point, at (b, p): the minimum of what it was and the infimum of the tile's row. -/
theorem accStep_apply (x0 x1 : Vec Ideal S4x3x512 .f32) (prev : Vec Ideal S4x512 .f32) (b : Fin 4) (p : Fin 512) :
    accStep (F := Ideal) x0 x1 prev (ix2 b p) = min (prev (ix2 b p)) (⨅ q : Fin 512, tileD x0 x1 b p q) := by
  unfold accStep k0_pay2
  simp only [shapeCast_self, minimumf_apply]
  exact congrArg (min (prev (ix2 b p))) (rowMin_apply x0 x1 b p)

/-- The column step's payload at (b, 0, q): the minimum of the slice read there and the infimum of the tile's column. -/
theorem pay3_apply (x0 x1 : Vec Ideal S4x3x512 .f32) (v : Vec Ideal S4x1x512 .f32) (b : Fin 4) (q : Fin 512) :
    k0_pay3 (F := Ideal) (k0_pay9 x0 x1) (k0_pay10 x0) (k0_pay11 x1) v (ix3 b (0 : Fin 1) q)
      = min (v (ix3 b (0 : Fin 1) q)) (⨅ p : Fin 512, tileD x0 x1 b p q) := by
  unfold k0_pay3
  simp only [shapeCast_self, minimumf_apply, addMid_apply]
  exact congrArg (min (v (ix3 b (0 : Fin 1) q))) (colMin_apply x0 x1 b q)

/-! ## The small payloads -/

/-- The row minima copied out: the 4 x 512 table viewed 4 x 1 x 512. -/
theorem k0_pay4_apply (v : Vec Ideal S4x512 .f32) (b : Fin 4) (p : Fin 512) :
    k0_pay4 (F := Ideal) v (ix3 b (0 : Fin 1) p) = v (ix2 b p) := by
  unfold k0_pay4
  exact addMid_apply v _ b p

/-- The restart value of the running row minimum is plus infinity everywhere. -/
theorem k0_pay5_apply (j : S4x512.Idx) : k0_pay5 (F := Ideal) j = ⊤ := by
  unfold k0_pay5
  simp only [shapeCast_self, broadcast_apply]
  exact Cert.Chamfer.ofBits_inf

/-- The restart value of the column minima is plus infinity everywhere. -/
theorem k0_pay6_apply (j : S4x1x4096.Idx) : k0_pay6 (F := Ideal) j = ⊤ := by
  unfold k0_pay6
  simp only [broadcast_apply]
  exact Cert.Chamfer.ofBits_inf

/-! ## The column step -/

/-- The offset the body computes from the third grid coordinate m is 512 m. -/
theorem off_val (m : Fin 8) :
    (Scalar.indexCast (Scalar.muli (BitVec.ofNat 32 m.val) 512#32)).toNat = m.val * 512 := by
  revert m; decide

/-- The column rectangle's offsets at grid point i are (0, 0, 512 · i₂). -/
theorem k0_off1_eq (i : grid0.Coords) : k0_off1 i = ![0, 0, (i 2).val * 512] := by
  have h := off_val ⟨(i 2).val, (i 2).isLt⟩
  unfold k0_off1
  exact congrArg (fun z => (![0, 0, z] : Fin 3 → Nat)) h

/-- The column block read through a rectangle of 512 columns from offset o, at (b, 0, q), is the block at (b, 0, o + q). -/
theorem ld_col_apply (prev : Vec Ideal S4x1x4096 .f32) (off : Fin 3 → Nat)
    (inb : ∀ a, off a + S4x1x512.size a ≤ S4x1x4096.size a) (h0 : off 0 = 0) (h1 : off 1 = 0)
    (b : Fin 4) (q : Fin 512) (col : Fin 4096) (h2 : col.val = off 2 + q.val) :
    View.ld prev (Rect.unit (s := S4x1x4096) off S4x1x512.size inb) (ix3 b (0 : Fin 1) q) = prev (ix3 b (0 : Fin 1) col) := by
  show prev ((Rect.unit (s := S4x1x4096) off S4x1x512.size inb).idx (ix3 b (0 : Fin 1) q)) = prev (ix3 b (0 : Fin 1) col)
  refine congrArg prev (funext fun a => Fin.ext ?_)
  match a with
  | ⟨0, _⟩ => show off 0 + 1 * b.val = b.val; omega
  | ⟨1, _⟩ => show off 1 + 1 * 0 = 0; omega
  | ⟨2, _⟩ => show off 2 + 1 * q.val = col.val; omega

/-- Inside the point's 512 columns the column step takes the minimum of what was there and the infimum of the tile's column. -/
theorem o2Step_inside (i : grid0.Coords) (x0 x1 : Vec Ideal S4x3x512 .f32) (prev : Vec Ideal S4x1x4096 .f32)
    (b : Fin 4) (col : Fin 4096) (q : Fin 512) (hq : col.val = (i 2).val * 512 + q.val) :
    o2Step (F := Ideal) i x0 x1 prev (ix3 b (0 : Fin 1) col)
      = min (prev (ix3 b (0 : Fin 1) col)) (⨅ p : Fin 512, tileD x0 x1 b p q) := by
  have h0 : k0_off1 i 0 = 0 := congrFun (k0_off1_eq i) 0
  have h1 : k0_off1 i 1 = 0 := congrFun (k0_off1_eq i) 1
  have h2 : k0_off1 i 2 = (i 2).val * 512 := congrFun (k0_off1_eq i) 2
  have hin : ∀ a, k0_off1 i a ≤ ((ix3 b (0 : Fin 1) col : S4x1x4096.Idx) a).val
      ∧ ((ix3 b (0 : Fin 1) col : S4x1x4096.Idx) a).val < k0_off1 i a + S4x1x512.size a := fun a =>
    match a with
    | ⟨0, _⟩ => by show k0_off1 i 0 ≤ b.val ∧ b.val < k0_off1 i 0 + 4; have := b.isLt; omega
    | ⟨1, _⟩ => by show k0_off1 i 1 ≤ 0 ∧ 0 < k0_off1 i 1 + 1; omega
    | ⟨2, _⟩ => by show k0_off1 i 2 ≤ col.val ∧ col.val < k0_off1 i 2 + 512; have := q.isLt; omega
  have hl : Rect.unitLocal (s := S4x1x4096) (off := k0_off1 i) (size := S4x1x512.size) (ix3 b (0 : Fin 1) col) hin
      = (ix3 b (0 : Fin 1) q : S4x1x512.Idx) := funext fun a => Fin.ext (by
    match a with
    | ⟨0, _⟩ => show b.val - k0_off1 i 0 = b.val; omega
    | ⟨1, _⟩ => show 0 - k0_off1 i 1 = 0; omega
    | ⟨2, _⟩ => show col.val - k0_off1 i 2 = q.val; omega)
  unfold o2Step
  rw [dif_pos hin]
  refine (congrArg (k0_pay3 (F := Ideal) (k0_pay9 x0 x1) (k0_pay10 x0) (k0_pay11 x1) (View.ld prev (colRect i))) hl).trans ?_
  refine (pay3_apply x0 x1 _ b q).trans ?_
  exact congrArg (fun z => min z (⨅ p : Fin 512, tileD x0 x1 b p q))
    (ld_col_apply prev (k0_off1 i) (k0_off1_inb i) h0 h1 b q col (by omega))

/-- Outside the point's 512 columns the column step leaves the block as it was. -/
theorem o2Step_outside (i : grid0.Coords) (x0 x1 : Vec Ideal S4x3x512 .f32) (prev : Vec Ideal S4x1x4096 .f32)
    (b : Fin 4) (col : Fin 4096) (hout : ¬ ((i 2).val * 512 ≤ col.val ∧ col.val < (i 2).val * 512 + 512)) :
    o2Step (F := Ideal) i x0 x1 prev (ix3 b (0 : Fin 1) col) = prev (ix3 b (0 : Fin 1) col) := by
  have h2 : k0_off1 i 2 = (i 2).val * 512 := congrFun (k0_off1_eq i) 2
  unfold o2Step
  rw [dif_neg]
  intro h
  have h' := h 2
  rw [h2] at h'
  exact hout h'

/-- The column step at (b, 0, col), in one statement. -/
theorem o2Step_apply (i : grid0.Coords) (x0 x1 : Vec Ideal S4x3x512 .f32) (prev : Vec Ideal S4x1x4096 .f32)
    (b : Fin 4) (col : Fin 4096) :
    o2Step (F := Ideal) i x0 x1 prev (ix3 b (0 : Fin 1) col)
      = if h : (i 2).val * 512 ≤ col.val ∧ col.val < (i 2).val * 512 + 512 then
          min (prev (ix3 b (0 : Fin 1) col)) (⨅ p : Fin 512, tileD x0 x1 b p ⟨col.val - (i 2).val * 512, by omega⟩)
        else prev (ix3 b (0 : Fin 1) col) := by
  split
  · next h => exact o2Step_inside i x0 x1 prev b col ⟨col.val - (i 2).val * 512, by omega⟩ (by show col.val = _ + (col.val - _); omega)
  · next h => exact o2Step_outside i x0 x1 prev b col h

end Cert.KernelIdeal.Tile

end
-- ==== Proof.KernelIdealBlocks.lean ====
/-
  The pipeline's blocks at a grid point in terms of the argument arrays.

  The grid is 2 x 8 x 8; point t = 64 h + 8 n + mm has batch half h, tile n of the first cloud and tile mm of the second.
  The two staged arrays are the argument arrays with their last two axes exchanged, so the first input block at t holds,
  at (b, k, p), coordinate k of point 512 n + p of the first cloud in batch 4 h + b, and the second input block, at (b, k, q),
  coordinate k of point 512 mm + q of the second cloud in that batch (iblk0_apply, iblk1_apply). Hence the body's tile entry
  (b, p, q) is the specification's squared distance between those two points (tile_sqd). The row-minimum output's block at
  t is batches 4 h .. 4 h + 3 and columns 512 n .. 512 n + 511; the column-minimum output's block is batches 4 h .. 4 h + 3 and
  every column (mem_blk2, mem_blk3, read_blk2, read_blk3).
-/
import proofs.«148777_j45337674776760_2_alg».proof.Proof.KernelIdealTile
import proofs.«148777_j45337674776760_2_alg».proof.Proof.ChamferSpec
import proofs.«148777_j45337674776760_2_alg».proof.Proof.Gen.KernelIdeal.Frame
import Idealize.ShloMosaic.Lib.ValueIdx
import Idealize.ShloMosaic.Lib.ValueLayout
import Idealize.ShloMosaic.Lib.Pipeline.Value

set_option maxRecDepth 16384

noncomputable section

namespace Cert.KernelIdeal.Blocks

open Idealize.ShloMosaic Idealize.ShloMosaic.ValueIdx Idealize.ShloMosaic.TcCoe Idealize.ShloMosaic.Tactic Idealize.SL.Sem
open Cert.KernelIdeal Cert.KernelIdeal.Gen

variable (m : (ℓ : Loc nD τ sig) → Buf (Elt Ideal) ℓ) (c : Dev nD)

/-! ## The arrays the region finds -/

/-- The first staged array is the first argument with its last two axes exchanged. -/
theorem V_main_v0 : (V m c main_v0 : S8x3x4096.Idx → EReal)
    = transpose S8x3x4096 [0, 2, 1] (m ((c : Thread nD τ).loc main_arg0)) transposes_S8x4096x3_S8x3x4096_0_2_1 := by
  show StableHlo.after hostOps0 (fun b => m (c, b)) (Proc.devRef .tc main_v0) = _
  after_results

/-- The second staged array is the second argument with its last two axes exchanged. -/
theorem V_main_v1 : (V m c main_v1 : S8x3x4096.Idx → EReal)
    = transpose S8x3x4096 [0, 2, 1] (m ((c : Thread nD τ).loc main_arg1)) transposes_S8x4096x3_S8x3x4096_0_2_1 := by
  show StableHlo.after hostOps0 (fun b => m (c, b)) (Proc.devRef .tc main_v1) = _
  after_results

/-! ## The printed index maps over the grid -/

/-- At point t = 64 h + 8 n + mm the four windows' block indices are (h, 0, n), (h, 0, mm), (h, 0, n), (h, 0, 0). -/
theorem idx_facts : ∀ t : Fin cfg0.N,
    win0_0.index t (0 : Fin 3) = t.val / 64 ∧ win0_0.index t (1 : Fin 3) = 0 ∧ win0_0.index t (2 : Fin 3) = (t.val / 8) % 8
    ∧ win0_1.index t (0 : Fin 3) = t.val / 64 ∧ win0_1.index t (1 : Fin 3) = 0 ∧ win0_1.index t (2 : Fin 3) = t.val % 8
    ∧ win0_2.index t (0 : Fin 3) = t.val / 64 ∧ win0_2.index t (1 : Fin 3) = 0 ∧ win0_2.index t (2 : Fin 3) = (t.val / 8) % 8
    ∧ win0_3.index t (0 : Fin 3) = t.val / 64 ∧ win0_3.index t (1 : Fin 3) = 0 ∧ win0_3.index t (2 : Fin 3) = 0 :=
  (by decide +kernel : ∀ t : Fin grid0.N, _)

/-- A point's number is below 128. -/
theorem t_lt (t : Fin cfg0.N) : t.val < 128 := lt_of_lt_of_eq t.isLt N_0

/-! ## The input blocks -/

/-- The first input block at point t, at (b, k, p): coordinate k of point 512 n + p of the first cloud in batch 4 h + b. -/
theorem iblk0_apply (t : Fin cfg0.N) (b : Fin 4) (k : Fin 3) (p : Fin 512) :
    iblk m c 0 t (ix3 b k p)
      = m ((c : Thread nD τ).loc main_arg0)
          (ix3 (⟨4 * (t.val / 64) + b.val, by have := t_lt t; omega⟩ : Fin 8)
            (⟨512 * ((t.val / 8) % 8) + p.val, by omega⟩ : Fin 4096) k) := by
  obtain ⟨e0, e1, e2, -⟩ := idx_facts t
  have ht := t_lt t
  show V m c main_v0 (((cfg0.win 0).blk t).view.emb (ix3 b k p)) = _
  have hemb : ((cfg0.win 0).blk t).view.emb (ix3 b k p)
      = (ix3 (⟨4 * (t.val / 64) + b.val, by omega⟩ : Fin 8) k (⟨512 * ((t.val / 8) % 8) + p.val, by omega⟩ : Fin 4096) : S8x3x4096.Idx) := by
    funext a; apply Fin.ext
    match a with
    | ⟨0, _⟩ => show win0_0.index t (0 : Fin 3) * 4 + 1 * b.val = 4 * (t.val / 64) + b.val; omega
    | ⟨1, _⟩ => show win0_0.index t (1 : Fin 3) * 3 + 1 * k.val = k.val; omega
    | ⟨2, _⟩ => show win0_0.index t (2 : Fin 3) * 512 + 1 * p.val = 512 * ((t.val / 8) % 8) + p.val; omega
  refine (congrArg (V m c main_v0) hemb).trans ?_
  refine (congrFun (V_main_v0 m c) _).trans ?_
  exact transpose_ix3_021_apply _ _ _ _ _

/-- The second input block at point t, at (b, k, q): coordinate k of point 512 mm + q of the second cloud in batch 4 h + b. -/
theorem iblk1_apply (t : Fin cfg0.N) (b : Fin 4) (k : Fin 3) (q : Fin 512) :
    iblk m c 1 t (ix3 b k q)
      = m ((c : Thread nD τ).loc main_arg1)
          (ix3 (⟨4 * (t.val / 64) + b.val, by have := t_lt t; omega⟩ : Fin 8)
            (⟨512 * (t.val % 8) + q.val, by omega⟩ : Fin 4096) k) := by
  obtain ⟨-, -, -, e0, e1, e2, -⟩ := idx_facts t
  have ht := t_lt t
  show V m c main_v1 (((cfg0.win 1).blk t).view.emb (ix3 b k q)) = _
  have hemb : ((cfg0.win 1).blk t).view.emb (ix3 b k q)
      = (ix3 (⟨4 * (t.val / 64) + b.val, by omega⟩ : Fin 8) k (⟨512 * (t.val % 8) + q.val, by omega⟩ : Fin 4096) : S8x3x4096.Idx) := by
    funext a; apply Fin.ext
    match a with
    | ⟨0, _⟩ => show win0_1.index t (0 : Fin 3) * 4 + 1 * b.val = 4 * (t.val / 64) + b.val; omega
    | ⟨1, _⟩ => show win0_1.index t (1 : Fin 3) * 3 + 1 * k.val = k.val; omega
    | ⟨2, _⟩ => show win0_1.index t (2 : Fin 3) * 512 + 1 * q.val = 512 * (t.val % 8) + q.val; omega
  refine (congrArg (V m c main_v1) hemb).trans ?_
  refine (congrFun (V_main_v1 m c) _).trans ?_
  exact transpose_ix3_021_apply _ _ _ _ _

/-! ## The tile in terms of the argument arrays -/

/-- The body's tile entry (b, p, q) at point t is the squared distance from point 512 n + p of the first cloud to point
    512 mm + q of the second in batch 4 h + b. -/
theorem tile_sqd (t : Fin cfg0.N) (b : Fin 4) (p q : Fin 512) :
    Cert.KernelIdeal.Tile.tileD (iblk m c 0 t) (iblk m c 1 t) b p q
      = Cert.Chamfer.sqd (m ((c : Thread nD τ).loc main_arg0)) (m ((c : Thread nD τ).loc main_arg1))
          (⟨4 * (t.val / 64) + b.val, by have := t_lt t; omega⟩ : Fin 8)
          (⟨512 * ((t.val / 8) % 8) + p.val, by omega⟩ : Fin 4096)
          (⟨512 * (t.val % 8) + q.val, by omega⟩ : Fin 4096) := by
  unfold Cert.KernelIdeal.Tile.tileD Cert.Chamfer.sqd Cert.Chamfer.delta
  rw [iblk0_apply m c t b 0 p, iblk0_apply m c t b 1 p, iblk0_apply m c t b 2 p,
    iblk1_apply m c t b 0 q, iblk1_apply m c t b 1 q, iblk1_apply m c t b 2 q]

/-! ## The output blocks -/

/-- An index of the row-minimum array lies in point t's block iff its batch is in the point's half and its column in the
    point's tile of the first cloud. -/
theorem mem_blk2 (t : Fin cfg0.N) (i : S8x1x4096.Idx) :
    i ∈ ((cfg0.win 2).blk t).view.set
      ↔ (4 * (t.val / 64) ≤ (i 0).val ∧ (i 0).val < 4 * (t.val / 64) + 4)
        ∧ (512 * ((t.val / 8) % 8) ≤ (i 2).val ∧ (i 2).val < 512 * ((t.val / 8) % 8) + 512) := by
  have hgen : i ∈ ((cfg0.win 2).blk t).view.set ↔ ∀ a : Fin 3, win0_2.index t a * S4x1x512.size a ≤ (i a).val
      ∧ (i a).val < win0_2.index t a * S4x1x512.size a + S4x1x512.size a := by
    show i ∈ ((View.whole main_v2_0).slice (win0_2.rect t)).set ↔ _
    rw [View.set_slice_whole, Rect.mem_set_unit]
    exact Iff.rfl
  rw [hgen]
  obtain ⟨-, -, -, -, -, -, e0, e1, e2, -⟩ := idx_facts t
  have h1 : (i 1).val < 1 := (i 1).isLt
  constructor
  · intro h
    have h0 : win0_2.index t (0 : Fin 3) * 4 ≤ (i 0).val ∧ (i 0).val < win0_2.index t (0 : Fin 3) * 4 + 4 := h 0
    have h2 : win0_2.index t (2 : Fin 3) * 512 ≤ (i 2).val ∧ (i 2).val < win0_2.index t (2 : Fin 3) * 512 + 512 := h 2
    omega
  · rintro ⟨h0, h2⟩ a
    match a with
    | ⟨0, _⟩ => show win0_2.index t (0 : Fin 3) * 4 ≤ (i 0).val ∧ (i 0).val < win0_2.index t (0 : Fin 3) * 4 + 4; omega
    | ⟨1, _⟩ => show win0_2.index t (1 : Fin 3) * 1 ≤ (i 1).val ∧ (i 1).val < win0_2.index t (1 : Fin 3) * 1 + 1; omega
    | ⟨2, _⟩ => show win0_2.index t (2 : Fin 3) * 512 ≤ (i 2).val ∧ (i 2).val < win0_2.index t (2 : Fin 3) * 512 + 512; omega

/-- An index of the column-minimum array lies in point t's block iff its batch is in the point's half. -/
theorem mem_blk3 (t : Fin cfg0.N) (i : S8x1x4096.Idx) :
    i ∈ ((cfg0.win 3).blk t).view.set ↔ (4 * (t.val / 64) ≤ (i 0).val ∧ (i 0).val < 4 * (t.val / 64) + 4) := by
  have hgen : i ∈ ((cfg0.win 3).blk t).view.set ↔ ∀ a : Fin 3, win0_3.index t a * S4x1x4096.size a ≤ (i a).val
      ∧ (i a).val < win0_3.index t a * S4x1x4096.size a + S4x1x4096.size a := by
    show i ∈ ((View.whole main_v2_1).slice (win0_3.rect t)).set ↔ _
    rw [View.set_slice_whole, Rect.mem_set_unit]
    exact Iff.rfl
  rw [hgen]
  obtain ⟨-, -, -, -, -, -, -, -, -, e0, e1, e2⟩ := idx_facts t
  have h1 : (i 1).val < 1 := (i 1).isLt
  have h2 : (i 2).val < 4096 := (i 2).isLt
  constructor
  · intro h
    have h0 : win0_3.index t (0 : Fin 3) * 4 ≤ (i 0).val ∧ (i 0).val < win0_3.index t (0 : Fin 3) * 4 + 4 := h 0
    omega
  · intro h0 a
    match a with
    | ⟨0, _⟩ => show win0_3.index t (0 : Fin 3) * 4 ≤ (i 0).val ∧ (i 0).val < win0_3.index t (0 : Fin 3) * 4 + 4; omega
    | ⟨1, _⟩ => show win0_3.index t (1 : Fin 3) * 1 ≤ (i 1).val ∧ (i 1).val < win0_3.index t (1 : Fin 3) * 1 + 1; omega
    | ⟨2, _⟩ => show win0_3.index t (2 : Fin 3) * 4096 ≤ (i 2).val ∧ (i 2).val < win0_3.index t (2 : Fin 3) * 4096 + 4096; omega

/-- Point t's block of any row-minimum array, at (b, 0, p), is the array at batch 4 h + b and column 512 n + p. -/
theorem read_blk2 (t : Fin cfg0.N) (G : S8x1x4096.Idx → Elt Ideal .f32) (b : Fin 4) (p : Fin 512) :
    ((cfg0.win 2).blk t).view.read (Elt Ideal) G (ix3 b (0 : Fin 1) p)
      = G (ix3 (⟨4 * (t.val / 64) + b.val, by have := t_lt t; omega⟩ : Fin 8) (0 : Fin 1)
          (⟨512 * ((t.val / 8) % 8) + p.val, by omega⟩ : Fin 4096)) := by
  obtain ⟨-, -, -, -, -, -, e0, e1, e2, -⟩ := idx_facts t
  have ht := t_lt t
  show G (((cfg0.win 2).blk t).view.emb (ix3 b (0 : Fin 1) p)) = _
  refine congrArg G (funext fun a => Fin.ext ?_)
  match a with
  | ⟨0, _⟩ => show win0_2.index t (0 : Fin 3) * 4 + 1 * b.val = 4 * (t.val / 64) + b.val; omega
  | ⟨1, _⟩ => show win0_2.index t (1 : Fin 3) * 1 + 1 * 0 = 0; omega
  | ⟨2, _⟩ => show win0_2.index t (2 : Fin 3) * 512 + 1 * p.val = 512 * ((t.val / 8) % 8) + p.val; omega

/-- Point t's block of any column-minimum array, at (b, 0, col), is the array at batch 4 h + b and column col. -/
theorem read_blk3 (t : Fin cfg0.N) (G : S8x1x4096.Idx → Elt Ideal .f32) (b : Fin 4) (col : Fin 4096) :
    ((cfg0.win 3).blk t).view.read (Elt Ideal) G (ix3 b (0 : Fin 1) col)
      = G (ix3 (⟨4 * (t.val / 64) + b.val, by have := t_lt t; omega⟩ : Fin 8) (0 : Fin 1) col) := by
  obtain ⟨-, -, -, -, -, -, -, -, -, e0, e1, e2⟩ := idx_facts t
  have ht := t_lt t
  show G (((cfg0.win 3).blk t).view.emb (ix3 b (0 : Fin 1) col)) = _
  refine congrArg G (funext fun a => Fin.ext ?_)
  match a with
  | ⟨0, _⟩ => show win0_3.index t (0 : Fin 3) * 4 + 1 * b.val = 4 * (t.val / 64) + b.val; omega
  | ⟨1, _⟩ => show win0_3.index t (1 : Fin 3) * 1 + 1 * 0 = 0; omega
  | ⟨2, _⟩ => show win0_3.index t (2 : Fin 3) * 4096 + 1 * col.val = col.val; omega

end Cert.KernelIdeal.Blocks

end
-- ==== Proof.KernelIdealValue.lean ====
/-
  The kernel's two output arrays after the run, over the extended reals.

  Point t = 64 h + 8 n + mm of the 2 x 8 x 8 grid handles batch half h, tile n of the first cloud and tile mm of the second.
  The running row minimum after t holds, at (b, p), the least squared distance from point 512 n + p of the first cloud to
  the tiles 0 .. mm of the second in batch 4 h + b (accAt_apply): it restarts at mm = 0 and gains one tile per point. The
  column-minimum block after t holds, at (b, 0, col), the least squared distance to point col of the second cloud from
  the tiles n' of the first with 8 n' + col / 512 ≤ 8 n + mm (o2At_apply): it restarts at n = mm = 0, and a point changes only the
  512 columns of its own tile of the second cloud. Every equality between such minima is proved by the universal
  property of the infimum. At mm = 7 all eight tiles of the second cloud are in, so what is copied out is the distance
  to the whole second cloud; at n = mm = 7 every tile of the first cloud is in for every column. The points that write
  back cover the two arrays, which therefore end holding dist1 and dist2 (final2, final3).
-/
import proofs.«148777_j45337674776760_2_alg».proof.Proof.KernelIdealData
import proofs.«148777_j45337674776760_2_alg».proof.Proof.KernelIdealBlocks
import Idealize.ShloMosaic.Lib.ValueIdx
import Idealize.ShloMosaic.Lib.Pipeline.Value

set_option maxRecDepth 16384

noncomputable section

namespace Cert.KernelIdeal.KValue

open Idealize.ShloMosaic Idealize.ShloMosaic.ValueIdx Idealize.ShloMosaic.TcCoe Idealize.SL.Sem
open Cert.KernelIdeal Cert.KernelIdeal.Gen
open Idealize.ShloMosaic.Pipeline (Dat Cfg Window)

variable (m : (ℓ : Loc nD τ sig) → Buf (Elt Ideal) ℓ) (c : Dev nD)

/-! ## Infima over a growing range of tiles -/

section Order

/-- Two ranges with the same members have the same infimum. -/
theorem iInf_cond_congr (F : Fin 8 → EReal) (P Q : Fin 8 → Prop) (h : ∀ k, P k ↔ Q k) :
    (⨅ (k : Fin 8) (_ : P k), F k) = ⨅ (k : Fin 8) (_ : Q k), F k := by
  refine eq_of_forall_le_iff fun x => ?_
  simp only [le_iInf_iff]
  exact ⟨fun hx k hk => hx k ((h k).mpr hk), fun hx k hk => hx k ((h k).mp hk)⟩

/-- The infimum over an empty range is the top element. -/
theorem iInf_cond_empty (F : Fin 8 → EReal) (Q : Fin 8 → Prop) (h : ∀ k, ¬Q k) :
    (⊤ : EReal) = ⨅ (k : Fin 8) (_ : Q k), F k := by
  refine eq_of_forall_le_iff fun x => ?_
  simp only [le_iInf_iff, le_top, true_iff]
  exact fun k hk => absurd hk (h k)

/-- Starting from the top element, one member gives the infimum over the range of that member alone. -/
theorem iInf_cond_reset (F : Fin 8 → EReal) (Q : Fin 8 → Prop) (k0 : Fin 8) (h : ∀ k, Q k ↔ k = k0) :
    min ⊤ (F k0) = ⨅ (k : Fin 8) (_ : Q k), F k := by
  refine eq_of_forall_le_iff fun x => ?_
  simp only [le_min_iff, le_top, true_and, le_iInf_iff]
  exact ⟨fun hx k hk => ((h k).mp hk) ▸ hx, fun hx => hx k0 ((h k0).mpr rfl)⟩

/-- Adding one member to a range takes the minimum of the infimum so far and that member. -/
theorem iInf_cond_step (F : Fin 8 → EReal) (P Q : Fin 8 → Prop) (k0 : Fin 8) (h : ∀ k, Q k ↔ (P k ∨ k = k0)) :
    min (⨅ (k : Fin 8) (_ : P k), F k) (F k0) = ⨅ (k : Fin 8) (_ : Q k), F k := by
  refine eq_of_forall_le_iff fun x => ?_
  simp only [le_min_iff, le_iInf_iff]
  constructor
  · rintro ⟨h1, h2⟩ k hk
    rcases (h k).mp hk with hp | rfl
    · exact h1 k hp
    · exact h2
  · intro hx
    exact ⟨fun k hk => hx k ((h k).mpr (.inl hk)), hx k0 ((h k0).mpr (.inr rfl))⟩

end Order

/-! ## The batch and the points a grid point addresses -/

/-- A point's number is below 128. -/
theorem lt128 {n : ℕ} (hn : n < cfg0.N) : n < 128 := lt_of_lt_of_eq hn N_0

/-- The batch that row b of point n's blocks holds. -/
def gOf (n : ℕ) (hn : n < cfg0.N) (b : Fin 4) : Fin 8 := ⟨4 * (n / 64) + b.val, by have := lt128 hn; omega⟩
/-- The point of the first cloud that column p of point n's first block holds. -/
def rOf (n : ℕ) (hn : n < cfg0.N) (p : Fin 512) : Fin 4096 := ⟨512 * ((n / 8) % 8) + p.val, by omega⟩

/-- The least squared distance from point r of the first cloud to tile k of the second, in batch g. -/
def rowF (g : Fin 8) (r : Fin 4096) (k : Fin 8) : EReal :=
  ⨅ q : Fin 512, Cert.Chamfer.sqd (m ((c : Thread nD τ).loc main_arg0)) (m ((c : Thread nD τ).loc main_arg1)) g r ⟨512 * k.val + q.val, by omega⟩

/-- The least squared distance from tile n' of the first cloud to point col of the second, in batch g. -/
def colF (g : Fin 8) (col : Fin 4096) (n' : Fin 8) : EReal :=
  ⨅ p : Fin 512, Cert.Chamfer.sqd (m ((c : Thread nD τ).loc main_arg0)) (m ((c : Thread nD τ).loc main_arg1)) g ⟨512 * n'.val + p.val, by omega⟩ col

/-- The third grid coordinate of point t is t modulo 8. -/
theorem coord2 : ∀ t : Fin cfg0.N, (grid0.coords t 2).val = t.val % 8 :=
  (by decide +kernel : ∀ t : Fin grid0.N, (grid0.coords t 2).val = t.val % 8)

/-- The tile's row minimum at point t is the least squared distance to the second cloud's tile t mod 8. -/
theorem tileRow (t : Fin cfg0.N) (b : Fin 4) (p : Fin 512) :
    (⨅ q : Fin 512, Tile.tileD (iblk m c 0 t) (iblk m c 1 t) b p q)
      = rowF m c (gOf t.val t.isLt b) (rOf t.val t.isLt p) ⟨t.val % 8, by omega⟩ :=
  iInf_congr fun q => Blocks.tile_sqd m c t b p q

/-- The tile's column minimum at point t, at column q of the tile, is the least squared distance from the first cloud's
    tile (t / 8) mod 8 to the second cloud's point 512 (t mod 8) + q. -/
theorem tileCol (t : Fin cfg0.N) (b : Fin 4) (q : Fin 512) (col : Fin 4096) (hcol : col.val = 512 * (t.val % 8) + q.val) :
    (⨅ p : Fin 512, Tile.tileD (iblk m c 0 t) (iblk m c 1 t) b p q)
      = colF m c (gOf t.val t.isLt b) col ⟨(t.val / 8) % 8, by omega⟩ := by
  have hc : col = ⟨512 * (t.val % 8) + q.val, by omega⟩ := Fin.ext hcol
  rw [hc]
  exact iInf_congr fun p => Blocks.tile_sqd m c t b p q

/-! ## The running row minimum -/

/-- What the running row minimum holds after point n. -/
def accSpec (n : ℕ) (hn : n < cfg0.N) (b : Fin 4) (p : Fin 512) : EReal :=
  ⨅ (k : Fin 8) (_ : k.val ≤ n % 8), rowF m c (gOf n hn b) (rOf n hn p) k

/-- At a point with mm = 0 the running row minimum is the least squared distance to tile 0 alone. -/
theorem acc_reset_case (t : Fin cfg0.N) (h0 : t.val % 8 = 0) (b : Fin 4) (p : Fin 512) :
    accAt (F := Ideal) m c t.val t.isLt (ix2 b p) = accSpec m c t.val t.isLt b p := by
  rw [accAt_reset m c t h0, Tile.accStep_apply, Tile.k0_pay5_apply, tileRow]
  exact iInf_cond_reset _ _ _ fun k => by rw [Fin.ext_iff]; show k.val ≤ t.val % 8 ↔ k.val = t.val % 8; omega

/-- At any other point it gains the point's tile of the second cloud. -/
theorem acc_step_case (t : Fin cfg0.N) (h0 : ¬t.val % 8 = 0)
    (ih : ∀ b p, accAt (F := Ideal) m c (t.val - 1) (Nat.lt_of_le_of_lt (Nat.sub_le _ _) t.isLt) (ix2 b p)
      = accSpec m c (t.val - 1) (Nat.lt_of_le_of_lt (Nat.sub_le _ _) t.isLt) b p) (b : Fin 4) (p : Fin 512) :
    accAt (F := Ideal) m c t.val t.isLt (ix2 b p) = accSpec m c t.val t.isLt b p := by
  rw [accAt_step m c t h0, Tile.accStep_apply, tileRow, ih b p]
  have hg : gOf (t.val - 1) (Nat.lt_of_le_of_lt (Nat.sub_le _ _) t.isLt) b = gOf t.val t.isLt b :=
    Fin.ext (by show 4 * ((t.val - 1) / 64) + b.val = 4 * (t.val / 64) + b.val; omega)
  have hr : rOf (t.val - 1) (Nat.lt_of_le_of_lt (Nat.sub_le _ _) t.isLt) p = rOf t.val t.isLt p :=
    Fin.ext (by show 512 * (((t.val - 1) / 8) % 8) + p.val = 512 * ((t.val / 8) % 8) + p.val; omega)
  unfold accSpec
  rw [hg, hr]
  exact iInf_cond_step _ _ _ _ fun k => by
    rw [Fin.ext_iff]; show k.val ≤ t.val % 8 ↔ (k.val ≤ (t.val - 1) % 8 ∨ k.val = t.val % 8); omega

/-- The running row minimum after every point, by induction along the grid. -/
theorem accAt_aux (n : ℕ) : ∀ (hn : n < cfg0.N) (b : Fin 4) (p : Fin 512),
    accAt (F := Ideal) m c n hn (ix2 b p) = accSpec m c n hn b p := by
  induction n with
  | zero => intro hn b p; exact acc_reset_case m c ⟨0, hn⟩ rfl b p
  | succ n ih =>
    intro hn b p
    by_cases h0 : (n + 1) % 8 = 0
    · exact acc_reset_case m c ⟨n + 1, hn⟩ h0 b p
    · exact acc_step_case m c ⟨n + 1, hn⟩ h0 (fun b p => ih _ b p) b p

/-- The running row minimum after point t = 64 h + 8 n + mm, at (b, p): the least squared distance from point 512 n + p of the
    first cloud to the tiles 0 .. mm of the second, in batch 4 h + b. -/
theorem accAt_apply (t : Fin cfg0.N) (b : Fin 4) (p : Fin 512) :
    accAt (F := Ideal) m c t.val t.isLt (ix2 b p)
      = ⨅ (k : Fin 8) (_ : k.val ≤ t.val % 8), ⨅ q : Fin 512,
          Cert.Chamfer.sqd (m ((c : Thread nD τ).loc main_arg0)) (m ((c : Thread nD τ).loc main_arg1))
            (⟨4 * (t.val / 64) + b.val, by have := lt128 t.isLt; omega⟩ : Fin 8)
            (⟨512 * ((t.val / 8) % 8) + p.val, by omega⟩ : Fin 4096)
            (⟨512 * k.val + q.val, by omega⟩ : Fin 4096) :=
  accAt_aux m c t.val t.isLt b p

/-! ## The column minima -/

/-- What the column-minimum block holds after point n. -/
def o2Spec (n : ℕ) (hn : n < cfg0.N) (b : Fin 4) (col : Fin 4096) : EReal :=
  ⨅ (n' : Fin 8) (_ : 8 * n'.val + col.val / 512 ≤ n % 64), colF m c (gOf n hn b) col n'

/-- One column step in terms of what was there: inside the point's columns one more tile of the first cloud, outside nothing. -/
theorem o2Step_point (t : Fin cfg0.N) (prev : Vec Ideal S4x1x4096 .f32) (b : Fin 4) (col : Fin 4096) :
    o2Step (F := Ideal) (grid0.coords t) (iblk m c 0 t) (iblk m c 1 t) prev (ix3 b (0 : Fin 1) col)
      = if col.val / 512 = t.val % 8 then
          min (prev (ix3 b (0 : Fin 1) col)) (colF m c (gOf t.val t.isLt b) col ⟨(t.val / 8) % 8, by omega⟩)
        else prev (ix3 b (0 : Fin 1) col) := by
  have h2 := coord2 t
  have hc := col.isLt
  split
  · next hin =>
    rw [Tile.o2Step_inside (grid0.coords t) _ _ prev b col ⟨col.val % 512, by omega⟩ (by rw [h2]; show col.val = t.val % 8 * 512 + col.val % 512; omega),
      tileCol m c t b ⟨col.val % 512, by omega⟩ col (by show col.val = 512 * (t.val % 8) + col.val % 512; omega)]
  · next hout =>
    exact Tile.o2Step_outside (grid0.coords t) _ _ prev b col (by rw [h2]; omega)

/-- At a point with n = mm = 0 the column minima hold tile 0 of the first cloud on the point's columns and plus infinity elsewhere. -/
theorem o2_reset_case (t : Fin cfg0.N) (h1 : t.val % 64 = 0) (b : Fin 4) (col : Fin 4096) :
    o2At (F := Ideal) m c t.val t.isLt (ix3 b (0 : Fin 1) col) = o2Spec m c t.val t.isLt b col := by
  rw [o2At_reset m c t h1, o2Step_point, Tile.k0_pay6_apply]
  have hc := col.isLt
  split
  · next hin =>
    exact iInf_cond_reset _ _ _ fun k => by
      rw [Fin.ext_iff]; show 8 * k.val + col.val / 512 ≤ t.val % 64 ↔ k.val = (t.val / 8) % 8; omega
  · next hout =>
    exact iInf_cond_empty _ _ fun k => by show ¬(8 * k.val + col.val / 512 ≤ t.val % 64); omega

/-- At any other point the point's columns gain the point's tile of the first cloud; no other column changes. -/
theorem o2_step_case (t : Fin cfg0.N) (h1 : ¬t.val % 64 = 0)
    (ih : ∀ b col, o2At (F := Ideal) m c (t.val - 1) (Nat.lt_of_le_of_lt (Nat.sub_le _ _) t.isLt) (ix3 b (0 : Fin 1) col)
      = o2Spec m c (t.val - 1) (Nat.lt_of_le_of_lt (Nat.sub_le _ _) t.isLt) b col) (b : Fin 4) (col : Fin 4096) :
    o2At (F := Ideal) m c t.val t.isLt (ix3 b (0 : Fin 1) col) = o2Spec m c t.val t.isLt b col := by
  rw [o2At_step m c t h1, o2Step_point, ih b col]
  have hc := col.isLt
  have hg : gOf (t.val - 1) (Nat.lt_of_le_of_lt (Nat.sub_le _ _) t.isLt) b = gOf t.val t.isLt b :=
    Fin.ext (by show 4 * ((t.val - 1) / 64) + b.val = 4 * (t.val / 64) + b.val; omega)
  unfold o2Spec
  rw [hg]
  split
  · next hin =>
    exact iInf_cond_step _ _ _ _ fun k => by
      rw [Fin.ext_iff]
      show 8 * k.val + col.val / 512 ≤ t.val % 64 ↔ (8 * k.val + col.val / 512 ≤ (t.val - 1) % 64 ∨ k.val = (t.val / 8) % 8)
      omega
  · next hout =>
    exact iInf_cond_congr _ _ _ fun k => by
      show 8 * k.val + col.val / 512 ≤ (t.val - 1) % 64 ↔ 8 * k.val + col.val / 512 ≤ t.val % 64
      omega

/-- The column minima after every point, by induction along the grid. -/
theorem o2At_aux (n : ℕ) : ∀ (hn : n < cfg0.N) (b : Fin 4) (col : Fin 4096),
    o2At (F := Ideal) m c n hn (ix3 b (0 : Fin 1) col) = o2Spec m c n hn b col := by
  induction n with
  | zero => intro hn b col; exact o2_reset_case m c ⟨0, hn⟩ rfl b col
  | succ n ih =>
    intro hn b col
    by_cases h1 : (n + 1) % 64 = 0
    · exact o2_reset_case m c ⟨n + 1, hn⟩ h1 b col
    · exact o2_step_case m c ⟨n + 1, hn⟩ h1 (fun b col => ih _ b col) b col

/-- The column-minimum block after point t = 64 h + 8 n + mm, at (b, 0, col): the least squared distance to point col of the
    second cloud from the tiles n' of the first with 8 n' + col / 512 ≤ 8 n + mm, in batch 4 h + b. -/
theorem o2At_apply (t : Fin cfg0.N) (b : Fin 4) (col : Fin 4096) :
    o2At (F := Ideal) m c t.val t.isLt (ix3 b (0 : Fin 1) col)
      = ⨅ (n' : Fin 8) (_ : 8 * n'.val + col.val / 512 ≤ t.val % 64), ⨅ p : Fin 512,
          Cert.Chamfer.sqd (m ((c : Thread nD τ).loc main_arg0)) (m ((c : Thread nD τ).loc main_arg1))
            (⟨4 * (t.val / 64) + b.val, by have := lt128 t.isLt; omega⟩ : Fin 8)
            (⟨512 * n'.val + p.val, by omega⟩ : Fin 4096) col :=
  o2At_aux m c t.val t.isLt b col

/-! ## What the flushing points write back -/

/-- The infimum over all eight tiles of 512 and over each tile is the infimum over all 4096 points. -/
theorem iInf_tiles (f : Fin 4096 → EReal) (P : Fin 8 → Prop) (hP : ∀ k, P k) :
    (⨅ (k : Fin 8) (_ : P k), ⨅ q : Fin 512, f ⟨512 * k.val + q.val, by omega⟩) = ⨅ j : Fin 4096, f j := by
  refine eq_of_forall_le_iff fun x => ?_
  simp only [le_iInf_iff]
  constructor
  · intro h j
    have hj := j.isLt
    have e : (⟨512 * (j.val / 512) + j.val % 512, by omega⟩ : Fin 4096) = j :=
      Fin.ext (by show 512 * (j.val / 512) + j.val % 512 = j.val; omega)
    exact le_of_le_of_eq (h ⟨j.val / 512, by omega⟩ (hP _) ⟨j.val % 512, by omega⟩) (congrArg f e)
  · intro h k _ q
    exact h _

/-- The distance from each point of the first cloud to the second cloud, as an array over (batch, 0, point). -/
def G2 : S8x1x4096.Idx → EReal := fun i =>
  Cert.Chamfer.dist1 (m ((c : Thread nD τ).loc main_arg0)) (m ((c : Thread nD τ).loc main_arg1)) (ix2 (i 0 : Fin 8) (i 2 : Fin 4096))

/-- The distance from each point of the second cloud to the first cloud, as an array over (batch, 0, point). -/
def G3 : S8x1x4096.Idx → EReal := fun i =>
  Cert.Chamfer.dist2 (m ((c : Thread nD τ).loc main_arg0)) (m ((c : Thread nD τ).loc main_arg1)) (ix2 (i 0 : Fin 8) (i 2 : Fin 4096))

/-- At mm = 7 the row minima copied out, at (b, 0, p), are the first cloud's distances at the block's entry. -/
theorem flushed2_point (t : Fin cfg0.N) (h7 : t.val % 8 = 7) (b : Fin 4) (p : Fin 512) :
    k0_pay4 (F := Ideal) (accAt (F := Ideal) m c t.val t.isLt) (ix3 b (0 : Fin 1) p)
      = ((cfg0.win 2).blk t).view.read (Elt Ideal) (G2 m c) (ix3 b (0 : Fin 1) p) := by
  rw [Tile.k0_pay4_apply, accAt_aux m c t.val t.isLt b p, Blocks.read_blk2]
  unfold accSpec rowF
  exact iInf_tiles (fun j => Cert.Chamfer.sqd (m ((c : Thread nD τ).loc main_arg0)) (m ((c : Thread nD τ).loc main_arg1)) (gOf t.val t.isLt b) (rOf t.val t.isLt p) j) _
    (fun k => by show k.val ≤ t.val % 8; have := k.isLt; omega)

/-- At n = mm = 7 the column minima, at (b, 0, col), are the second cloud's distances at the block's entry. -/
theorem flushed3_point (t : Fin cfg0.N) (h63 : t.val % 64 = 63) (b : Fin 4) (col : Fin 4096) :
    o2At (F := Ideal) m c t.val t.isLt (ix3 b (0 : Fin 1) col)
      = ((cfg0.win 3).blk t).view.read (Elt Ideal) (G3 m c) (ix3 b (0 : Fin 1) col) := by
  rw [o2At_aux m c t.val t.isLt b col, Blocks.read_blk3]
  unfold o2Spec colF
  exact iInf_tiles (fun j => Cert.Chamfer.sqd (m ((c : Thread nD τ).loc main_arg0)) (m ((c : Thread nD τ).loc main_arg1)) (gOf t.val t.isLt b) j col) _
    (fun k => by show 8 * k.val + col.val / 512 ≤ t.val % 64; have := k.isLt; have := col.isLt; omega)

/-- What a point that copies the row minima out writes back is its block of the first cloud's distances. -/
theorem flushed2_eq (t : Fin cfg0.N) (hf : (cfg0.win 2).flush t = true) :
    (dats m 0 c).flushed 2 t = ((cfg0.win 2).blk t).view.read (Elt Ideal) (G2 m c) := by
  show (cfg0.win 2).cut (grid0.coords t) ((dats m 0 c).after 2 t) = _
  rw [after0_2]
  funext y
  obtain ⟨b, z, p, rfl⟩ : ∃ (b : Fin 4) (z : Fin 1) (p : Fin 512), y = ix3 b z p := ⟨y 0, y 1, y 2, eq_ix3 y⟩
  obtain rfl : z = 0 := Subsingleton.elim _ _
  exact flushed2_point m c t ((flush0_2 t).mp hf) b p

/-- What the last point of a batch half writes back is its block of the second cloud's distances. -/
theorem flushed3_eq (t : Fin cfg0.N) (hf : (cfg0.win 3).flush t = true) :
    (dats m 0 c).flushed 3 t = ((cfg0.win 3).blk t).view.read (Elt Ideal) (G3 m c) := by
  show (cfg0.win 3).cut (grid0.coords t) ((dats m 0 c).after 3 t) = _
  rw [after0_3]
  funext y
  obtain ⟨b, z, col, rfl⟩ : ∃ (b : Fin 4) (z : Fin 1) (col : Fin 4096), y = ix3 b z col := ⟨y 0, y 1, y 2, eq_ix3 y⟩
  obtain rfl : z = 0 := Subsingleton.elim _ _
  exact flushed3_point m c t ((flush0_3 t).mp hf) b col

/-! ## The write-backs cover the two arrays -/

/-- Every entry of the row-minimum array is in the block of a point that copies the row minima out. -/
theorem cover2 (i : S8x1x4096.Idx) : ∃ t : Fin cfg0.N, (cfg0.win 2).flush t = true ∧ i ∈ ((cfg0.win 2).blk t).view.set := by
  have h0 : (i 0).val < 8 := (i 0).isLt
  have h2 : (i 2).val < 4096 := (i 2).isLt
  refine ⟨⟨64 * ((i 0).val / 4) + 8 * ((i 2).val / 512) + 7, lt_of_lt_of_eq (by omega : _ < 128) N_0.symm⟩, ?_, ?_⟩
  · exact (flush0_2 _).mpr (by show (64 * ((i 0).val / 4) + 8 * ((i 2).val / 512) + 7) % 8 = 7; omega)
  · rw [Blocks.mem_blk2]
    show (4 * ((64 * ((i 0).val / 4) + 8 * ((i 2).val / 512) + 7) / 64) ≤ (i 0).val
        ∧ (i 0).val < 4 * ((64 * ((i 0).val / 4) + 8 * ((i 2).val / 512) + 7) / 64) + 4)
      ∧ (512 * (((64 * ((i 0).val / 4) + 8 * ((i 2).val / 512) + 7) / 8) % 8) ≤ (i 2).val
        ∧ (i 2).val < 512 * (((64 * ((i 0).val / 4) + 8 * ((i 2).val / 512) + 7) / 8) % 8) + 512)
    omega

/-- Every entry of the column-minimum array is in the block of the last point of a batch half. -/
theorem cover3 (i : S8x1x4096.Idx) : ∃ t : Fin cfg0.N, (cfg0.win 3).flush t = true ∧ i ∈ ((cfg0.win 3).blk t).view.set := by
  have h0 : (i 0).val < 8 := (i 0).isLt
  refine ⟨⟨64 * ((i 0).val / 4) + 63, lt_of_lt_of_eq (by omega : _ < 128) N_0.symm⟩, ?_, ?_⟩
  · exact (flush0_3 _).mpr (by show (64 * ((i 0).val / 4) + 63) % 64 = 63; omega)
  · rw [Blocks.mem_blk3]
    show 4 * ((64 * ((i 0).val / 4) + 63) / 64) ≤ (i 0).val ∧ (i 0).val < 4 * ((64 * ((i 0).val / 4) + 63) / 64) + 4
    omega

/-! ## The two output arrays after the run -/

/-- The row-minimum array ends holding the distance from each point of the first cloud to the second cloud. -/
theorem final2 : (dats m 0 c).arrAt 2 cfg0.N = G2 m c :=
  (dats m 0 c).arrAt_eq_of_cover 2 (G2 m c) (fun t hf => flushed2_eq m c t hf) (cover2)

/-- The column-minimum array ends holding the distance from each point of the second cloud to the first cloud. -/
theorem final3 : (dats m 0 c).arrAt 3 cfg0.N = G3 m c :=
  (dats m 0 c).arrAt_eq_of_cover 3 (G3 m c) (fun t hf => flushed3_eq m c t hf) (cover3)

end Cert.KernelIdeal.KValue

end
-- ==== Proof.KernelIdealResult.lean ====
/-
  The idealized kernel's result as a function of its arguments.

  After the region the first output array holds, at (g, 0, n), the distance from point n of the first cloud to the nearest
  point of the second, and the second output array, at (g, 0, m), the distance from point m of the second cloud to the
  nearest point of the first. The host lines after the region drop the unit axis of each, sum each table from zero,
  divide by 32768 and add the two quotients: the mean of means of the two tables of minima.
-/
import proofs.«148777_j45337674776760_2_alg».proof.Proof.KernelIdealValue
import Idealize.ShloMosaic.Lib.StableHlo.Run

set_option maxRecDepth 16384

noncomputable section

namespace Cert.KernelIdeal.KValue

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- The first output array with its unit axis dropped is the table of row minima. -/
theorem reshape2 (c : Dev nD) (h : S8x1x4096.ShapeCasts S8x4096) :
    shapeCast S8x4096 (G2 m c) h = Cert.Chamfer.dist1 (m ((c : Thread nD τ).loc main_arg0)) (m ((c : Thread nD τ).loc main_arg1)) := by
  funext i
  obtain ⟨g, col, rfl⟩ : ∃ (g : Fin 8) (col : Fin 4096), i = ix2 g col := ⟨i 0, i 1, eq_ix2 i⟩
  refine (shapeCast_apply _ h (ix2 g col) (ix3 g (0 : Fin 1) col) ?_).trans rfl
  rw [Shape.rowMajor_val_three, Shape.rowMajor_val_two]
  show (g.val * 1 + 0) * 4096 + col.val = g.val * 4096 + col.val
  omega

/-- The second output array with its unit axis dropped is the table of column minima. -/
theorem reshape3 (c : Dev nD) (h : S8x1x4096.ShapeCasts S8x4096) :
    shapeCast S8x4096 (G3 m c) h = Cert.Chamfer.dist2 (m ((c : Thread nD τ).loc main_arg0)) (m ((c : Thread nD τ).loc main_arg1)) := by
  funext i
  obtain ⟨g, col, rfl⟩ : ∃ (g : Fin 8) (col : Fin 4096), i = ix2 g col := ⟨i 0, i 1, eq_ix2 i⟩
  refine (shapeCast_apply _ h (ix2 g col) (ix3 g (0 : Fin 1) col) ?_).trans rfl
  rw [Shape.rowMajor_val_three, Shape.rowMajor_val_two]
  show (g.val * 1 + 0) * 4096 + col.val = g.val * 4096 + col.val
  omega

/-- What the host lines after the region leave in the result buffer: the mean of means of the two tables of minima. -/
theorem result_eq (c : Dev nD) :
    Pipeline.afterTail₀ cfgs (dats (F := Ideal) m) 0 (V0 m) [hostOps1] c main_v9
      = Cert.Chamfer.meanOfMeans reducesTo_S8x4096_S_d0_1 h_S_
          (Cert.Chamfer.dist1 (m ((c : Thread nD τ).loc main_arg0)) (m ((c : Thread nD τ).loc main_arg1)))
          (Cert.Chamfer.dist2 (m ((c : Thread nD τ).loc main_arg0)) (m ((c : Thread nD τ).loc main_arg1))) := by
  unfold Pipeline.afterTail₀
  show StableHlo.after hostOps1 _ (Proc.devRef .tc main_v9) = _
  after_results
  have e2 : Pipeline.withArrays (cfgs 0).spec c (V0 m c) (fun w => (dats m 0 c).arrAt w (cfgs 0).N) (Proc.devRef .tc main_v2_0) = G2 m c :=
    (Pipeline.withArrays_arr spec0 launch0.win.arr_inj c _ _ 2).trans (final2 m c)
  have e3 : Pipeline.withArrays (cfgs 0).spec c (V0 m c) (fun w => (dats m 0 c).arrAt w (cfgs 0).N) (Proc.devRef .tc main_v2_1) = G3 m c :=
    (Pipeline.withArrays_arr spec0 launch0.win.arr_inj c _ _ 3).trans (final3 m c)
  rw [e2, e3]
  show Cert.Chamfer.meanOfMeans reducesTo_S8x4096_S_d0_1 h_S_ (shapeCast S8x4096 (G2 m c) shapeCasts_S8x1x4096_S8x4096)
    (shapeCast S8x4096 (G3 m c) shapeCasts_S8x1x4096_S8x4096) = _
  rw [reshape2, reshape3]

/-- The idealized kernel's run: it terminates with the mean of means in its result buffer and its arguments unchanged. -/
theorem run : θ_run defs (onTc (τ := τ) (main (F := Ideal))) ⟨m, fun _ => 0, ρ⟩ (fun r => ∀ c : Dev nD,
      r.2.mem ((c.tc : Thread nD τ).loc main_v9) = Cert.Chamfer.meanOfMeans reducesTo_S8x4096_S_d0_1 h_S_
          (Cert.Chamfer.dist1 (m ((c : Thread nD τ).loc main_arg0)) (m ((c : Thread nD τ).loc main_arg1)))
          (Cert.Chamfer.dist2 (m ((c : Thread nD τ).loc main_arg0)) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v9 (Pipeline.mem_restRefs_of main_v9 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KValue

end
-- ==== Proof.lean ====
/-
  The Chamfer loss of two clouds of points, computed two ways.

  The kernel walks the 8 x 8 tiles of the table of squared distances of each batch half once, forms each tile as a sum of
  squared coordinate differences clamped at zero, and feeds both nearest-neighbour minima from it: a running minimum along
  the rows, kept between points and copied out when a row of tiles ends, and a running minimum along the columns, kept in
  the resident output block. The reference forms the whole table as |a|² + |b|² - 2 a·b, clamped at zero, and takes the two
  minima of it. Both end with the mean of means of the two tables of minima.

  At the ideal instance the two tables of squared distances agree entry by entry when every input is finite — the square of
  a difference expanded, an identity of the reals that fails at infinities, which is where the precondition is used — and
  a minimum over tiles taken in any grouping is the minimum over the whole range. So both programs end with the same
  function of the arguments: the mean of means of `Cert.Chamfer.dist1` and `Cert.Chamfer.dist2`.

  The kernel's frame, at the bit level and at the ideal level, is the same run read at the argument arrays; the
  idealization rewrote nothing, so there is nothing to preserve.
-/
import proofs.«148777_j45337674776760_2_alg».proof.Defs
import proofs.«148777_j45337674776760_2_alg».proof.Proof.Gen.Kernel
import proofs.«148777_j45337674776760_2_alg».proof.Proof.Gen.KernelIdeal
import proofs.«148777_j45337674776760_2_alg».proof.Proof.Gen.ReferenceIdeal
import proofs.«148777_j45337674776760_2_alg».proof.Proof.Gen.ReferenceIdeal.Run
import proofs.«148777_j45337674776760_2_alg».proof.Proof.Gen.ReferenceIdeal.Read
import proofs.«148777_j45337674776760_2_alg».proof.Proof.Gen.Pre_finite_inputs
import proofs.«148777_j45337674776760_2_alg».proof.Proof.ChamferSpec
import proofs.«148777_j45337674776760_2_alg».proof.Proof.RefValue
import proofs.«148777_j45337674776760_2_alg».proof.Proof.KernelData
import proofs.«148777_j45337674776760_2_alg».proof.Proof.KernelIdealResult
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- And the idealized reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments, finite by the precondition, both idealized programs end with the mean of
    means of the two tables of nearest-neighbour distances of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  have hfin := Cert.ReferenceIdeal.RefValue.finite_of_pre
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (by rw [(hagree c).1, (hagree c).2]; exact hpre c)
  rw [Cert.ReferenceIdeal.Read.val_main_v21_eq, Cert.ReferenceIdeal.RefValue.ref_result _ _ hfin.1 hfin.2,
    (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
